-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S512x1024 : Shape := ⟨2, ![512, 1024]⟩
abbrev S1024x1 : Shape := ⟨2, ![1024, 1]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_24 : BitVec 32 := 0#32
  let v44 : BitVec 1 := Scalar.cmpi .ne v43 c0_i32_24
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .f32 = 32 ∨ (Rect.block (s := S8192x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.WordProjectBody.lean ====
/-
  The projection kernel (the first of the program's two kernel regions) on one core: at grid point t it reads
  rows 512·t … 512·t+511 of the activations and the three whole weight matrices, and stores the three products
  of that row block with the weights into its three output blocks. Stated for any float instance, at any
  contents V of the core's buffers when the region is entered.
-/
import proofs.«161902_j11218454577369_2_alg».proof.Proof.Gen.Kernel.Launch
import proofs.«161902_j11218454577369_2_alg».proof.Proof.Gen.Kernel.Skeleton
import proofs.«161902_j11218454577369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's two rectangles: a whole row block, a whole weight matrix -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-! ## What the body leaves in each output block: one whole-block store each -/

/-- The query block: the row block times the first weight matrix. -/
def outQ (x : Vec F S512x1024 .f32) (wq : Vec F S1024x1024 .f32) : Vec F S512x1024 .f32 :=
  View.canon [⟨rX, k0_pay1 (View.ld x rX) (View.ld wq rW)⟩]
/-- The key block: the row block times the second weight matrix. -/
def outK (x : Vec F S512x1024 .f32) (wk : Vec F S1024x1024 .f32) : Vec F S512x1024 .f32 :=
  View.canon [⟨rX, k0_pay2 (View.ld x rX) (View.ld wk rW)⟩]
/-- The value block: the row block times the third weight matrix, in the narrower float format. -/
def outV (x : Vec F S512x1024 .f32) (wv : Vec F S1024x1024 .f32) : Vec F S512x1024 .bf16 :=
  View.canon [⟨rX, k0_pay3 (View.ld x rX) (View.ld wv rW)⟩]

/-- One store through the whole block covers it. -/
theorem cover_f32 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y
theorem cover_bf16 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- On whole staging buffers, the four inputs at contents x, wq, wk, wv and the three outputs at anything, the body
    runs to the end leaving the inputs as they were and the outputs at the three products. -/
theorem sound_project (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x : Vec F S512x1024 .f32) (wq wk wv : Vec F S1024x1024 .f32) (K : PUnit → sProp 𝕄) :
    iprop(owns (c : Thread nD τ) arg1 fullShare x ∗ owns (c : Thread nD τ) arg2 fullShare wq ∗ owns (c : Thread nD τ) arg3 fullShare wk
        ∗ owns (c : Thread nD τ) arg4 fullShare wv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare wk
            ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E
          (cc0__project_kernel i arg1 harg1 arg2 harg2 arg3 harg3 arg4 harg4 arg5 harg5 arg6 harg6 arg7 harg7) K := by
  simp only [cc0__project_kernel_eq_skeleton]; unfold cc0__project_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  isplitl [H6]
  · iexists _; isplitr
    swap; · iexact H6
    ipureintro
    exact View.read_writes_eq_canon _ _ _ (cover_f32 _)
  iexists _; isplitr
  swap; · iexact H7
  ipureintro
  exact View.read_writes_eq_canon _ _ _ (cover_bf16 _)

end Cert.Kernel.Hand

end
-- ==== Proof.WordProjectData.lean ====
/-
  The projection region's proof data on one core: what each window's staging buffer holds after the body at every
  grid point (an input its block, an output the product of the point's row block with a weight matrix), that an
  input's buffer holds its block at every point whether or not the point fetched it, and the body obligation.
-/
import proofs.«161902_j11218454577369_2_alg».proof.Proof.WordProjectBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input's current staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body at point t each input's buffer at its block and the three
    outputs' at the three products of the point's row block; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_project c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordFlashRuns.lean ====
/-
  The attention kernel (the second of the program's two kernel regions) walks an 8 x 8 grid: point t = 8·qi + kv takes
  query block qi against key/value block kv. Its body has two conditionals on kv: at kv = 0 it resets the three
  arrays it carries from point to point (the running row maximum, the running denominator, the running numerator), and
  at kv = 7 it stores the quotient numerator / denominator into the output block. This module holds what the three
  control cases (kv = 0; 0 < kv < 7; kv = 7) share: the two conditions decided over the grid, where each window is
  idle, and the names of the staging and carried buffers.
-/
import proofs.«161902_j11218454577369_2_alg».proof.Proof.Gen.Kernel.Launch
import proofs.«161902_j11218454577369_2_alg».proof.Proof.Gen.Kernel.Skeleton
import proofs.«161902_j11218454577369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional's condition (reset the carried arrays), from the grid coordinates. -/
abbrev cond1_0 (i : grid1.Coords) : Prop := (Scalar.cmpi .ne (Scalar.extui (Scalar.cmpi .eq (BitVec.ofNat 32 (i 1).val) 0#32)) 0#32) = 1#1
/-- It holds exactly at the points with kv = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (store the output block), from the grid coordinates. -/
abbrev cond1_1 (i : grid1.Coords) : Prop := k1_cond2 i = 1#1
/-- It holds exactly at the points with kv = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At kv = 0 the output window is idle: nothing is stored into it. -/
theorem idleAt1_3_A : ∀ t : Fin cfg1.N, cond1_0 (grid1.coords t) → ¬cond1_1 (grid1.coords t) → cfg1.idle 3 (grid1.coords t) = true := by decide +kernel
/-- At kv = 0 the output block is not written back. -/
theorem noFlush1_3_A : ∀ t : Fin cfg1.N, cond1_0 (grid1.coords t) → ¬cond1_1 (grid1.coords t) → (cfg1.win 3).flush t = false := by decide +kernel
/-- At 0 < kv < 7 the output window is idle. -/
theorem idleAt1_3_B : ∀ t : Fin cfg1.N, ¬cond1_0 (grid1.coords t) → ¬cond1_1 (grid1.coords t) → cfg1.idle 3 (grid1.coords t) = true := by decide +kernel
/-- At 0 < kv < 7 the output block is not written back. -/
theorem noFlush1_3_B : ∀ t : Fin cfg1.N, ¬cond1_0 (grid1.coords t) → ¬cond1_1 (grid1.coords t) → (cfg1.win 3).flush t = false := by decide +kernel
/-- At kv = 7 the output window is live: the quotient is stored into it. -/
theorem liveAt1_3_C : ∀ t : Fin cfg1.N, ¬cond1_0 (grid1.coords t) → cond1_1 (grid1.coords t) → cfg1.idle 3 (grid1.coords t) = false := by decide +kernel

/-! ## The staging and carried buffers -/

/-- Each window's current staging buffer at point t, and that it is a whole buffer. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The running row maximum, as a whole buffer. -/
abbrev scM1_0 : Memref sig .tc .vmem S1024x1 .f32 := Memref.whole cc1_scratch0
/-- The running denominator. -/
abbrev scM1_1 : Memref sig .tc .vmem S1024x1 .f32 := Memref.whole cc1_scratch1
/-- The running numerator. -/
abbrev scM1_2 : Memref sig .tc .vmem S1024x1024 .f32 := Memref.whole cc1_scratch2
/-- The views through which the carried arrays' contents are stated. -/
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1024x1024 .f32 := (Memref.whole cc1_stg3_0 : Memref sig .tc .vmem S1024x1024 .f32).view

end Cert.Kernel.Hand

end
-- ==== Proof.WordFlashRunA.lean ====
/-
  The attention kernel's body at a grid point with kv = 0: the first conditional is taken and resets the three carried
  arrays (the running maximum to minus infinity, the running denominator and numerator to zero) before the update; the
  second conditional is not taken, so the output block is not touched.
-/
import proofs.«161902_j11218454577369_2_alg».proof.Proof.WordFlashRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with kv = 0 (the reset taken, the output store not): on whole buffers, the three inputs at x0, x1, x2,
    the output block at any contents xi3, the carried arrays at anything, the body runs to the end leaving the inputs
    and the output block as they were and each carried array with its pieces written: the reset's store first, then
    the update's. The pieces are the witness the run finds; they do not mention what the carried arrays held. -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

/-! ## Each carried array is stored whole -/

/-- The pieces the body leaves in the running maximum at kv = 0 cover it. -/
theorem scover1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL _ S1024x1.size (by sl_kernel_rfl) y

/-- The pieces the body leaves in the running denominator at kv = 0 cover it. -/
theorem scover1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL _ S1024x1.size (by sl_kernel_rfl) y

/-- The pieces the body leaves in the running numerator at kv = 0 cover it. -/
theorem scover1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL _ S1024x1024.size (by sl_kernel_rfl) y

end Cert.Kernel.Hand

end
-- ==== Proof.WordFlashRunB.lean ====
/-
  The attention kernel's body at a grid point with 0 < kv < 7: neither of its two conditionals is taken. It reads the
  query, key and value blocks and the three carried arrays, and stores the new running maximum, denominator and
  numerator; the output block is not touched.
-/
import proofs.«161902_j11218454577369_2_alg».proof.Proof.WordFlashRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with 0 < kv < 7 (neither conditional taken): on whole buffers, the three inputs at x0, x1, x2, the
    output block at any contents xi3, the carried arrays at what the point before left (xs0, xs1, xs2), the body runs
    to the end leaving the inputs and the output block as they were and each carried array with its pieces written.
    The pieces are the witness the run finds. -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

/-! ## Each carried array is stored whole -/

/-- The pieces the body leaves in the running maximum at 0 < kv < 7 cover it. -/
theorem scover1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL _ S1024x1.size (by sl_kernel_rfl) y

/-- The pieces the body leaves in the running denominator at 0 < kv < 7 cover it. -/
theorem scover1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL _ S1024x1.size (by sl_kernel_rfl) y

/-- The pieces the body leaves in the running numerator at 0 < kv < 7 cover it. -/
theorem scover1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL _ S1024x1024.size (by sl_kernel_rfl) y

end Cert.Kernel.Hand

end
-- ==== Proof.WordFlashRunC.lean ====
/-
  The attention kernel's body at a grid point with kv = 7: the first conditional is not taken; after the update the
  second conditional is taken and stores the quotient numerator / denominator, row by row, into the output block.
-/
import proofs.«161902_j11218454577369_2_alg».proof.Proof.WordFlashRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with kv = 7 (the reset not taken, the output store taken): on whole buffers, the three inputs at x0,
    x1, x2, the output block at anything, the carried arrays at what the point before left (xs0, xs1, xs2), the body
    runs to the end leaving the inputs as they were, each carried array with its pieces written, and the output block
    with its one piece written: the quotient of the new numerator by the new denominator. The pieces are the witness
    the run finds. -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

/-! ## The output block and each carried array are stored whole -/

/-- The one piece the body stores into the output block at kv = 7 covers it. -/
theorem cover1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL _ S1024x1024.size (by sl_kernel_rfl) y

/-- The pieces the body leaves in the running maximum at kv = 7 cover it. -/
theorem scover1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL _ S1024x1.size (by sl_kernel_rfl) y

/-- The pieces the body leaves in the running denominator at kv = 7 cover it. -/
theorem scover1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL _ S1024x1.size (by sl_kernel_rfl) y

/-- The pieces the body leaves in the running numerator at kv = 7 cover it. -/
theorem scover1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL _ S1024x1024.size (by sl_kernel_rfl) y

end Cert.Kernel.Hand

end
-- ==== Proof.WordFlashData.lean ====
/-
  The attention region's proof data on one core. The kernel walks, for each block of 1024 query rows, the 8 blocks of
  1024 keys; it keeps the running row maximum, the running denominator and the running numerator in three scratch
  arrays that it resets at the first key block and carries to the next point, and stores the output block at the last
  key block. Here: what the output block's buffer and the three scratch arrays hold after every grid point (by
  recursion on the point), the region's invariant (the scratch arrays at what the point before left), and the body
  obligation, case by case.
-/
import proofs.«161902_j11218454577369_2_alg».proof.Proof.WordFlashRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- What case A leaves in the output block's buffer and in the three scratch arrays: its pieces read back. -/
def outs1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) : Vec F S1024x1024 .f32 × Vec F S1024x1 .f32 × Vec F S1024x1 .f32 × Vec F S1024x1024 .f32 :=
  (VO1_3.read (Elt F) (VO1_3.writes (Elt F) VO1_3.junk (kernelRun1_A c i arg2 harg2 arg3 harg3 arg4 harg4 arg5 harg5 arg6 harg6 arg7 harg7 arg8 harg8 hc0 hc1 x0 x1 x2).1),
   VS1_0.read (Elt F) (VS1_0.writes (Elt F) VS1_0.junk (kernelRun1_A c i arg2 harg2 arg3 harg3 arg4 harg4 arg5 harg5 arg6 harg6 arg7 harg7 arg8 harg8 hc0 hc1 x0 x1 x2).2.1),
   VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1),
   VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1))

/-- What case B leaves in the output block's buffer and in the three scratch arrays: its pieces read back. -/
def outs1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1),
   VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1),
   VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1),
   VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1))

/-- What case C leaves in the output block's buffer and in the three scratch arrays: its pieces read back. -/
def outs1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1),
   VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1),
   VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1),
   VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1))

/-! ## What the output block's buffer and the scratch arrays hold after each point -/

/-- By recursion on the point: the case the point is in, run on the point's blocks, the scratch arrays at what the
    point before left (at the first key block the kernel resets them first, so nothing earlier is read). -/
def outsAt1 (c : Dev nD) : (n : ℕ) → n < cfg1.N → Vec F S1024x1024 .f32 × Vec F S1024x1 .f32 × Vec F S1024x1 .f32 × Vec F S1024x1024 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 8 = 0 then
      outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 8 = 7 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = outs1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = outs1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outs1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers that are neither a staging buffer of this region nor one of its scratch arrays (the
    other region's staging buffers), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's invariant with the three scratch arrays named: the other scoped buffers, the three scratch arrays at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_open (c : Dev nD) :
    (Pipeline.ΦA spec1 c : sProp 𝕄) ⊢ iprop(otherScoped (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold otherScoped
  iintro ⟨⟨R0, R1, R2, R3, R4, R5, R6, R7, R8, R9, R10, H0, H1, H2⟩, Hg⟩
  isplitl [R0 R1 R2 R3 R4 R5 R6 R7 R8 R9 R10]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  isplitl [H0]; · iexact H0
  isplitl [H1]; · iexact H1
  isplitl [H2]; · iexact H2
  iexact Hg

theorem PhiA1_close (c : Dev nD) :
    iprop(otherScoped (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold otherScoped
  iintro ⟨⟨R0, R1, R2, R3, R4, R5, R6, R7, R8, R9, R10⟩, H0, H1, H2, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [H0]; · iexact H0
    isplitl [H1]; · iexact H1
    iexact H2
  iexact Hg

/-- Before the first point the class's invariant (every scratch array at anything); afterwards the other scoped
    buffers, the three scratch arrays at what the point before left, and the generator register at some state. -/
def PhiS1 (c : Dev nD) : (n : ℕ) → n ≤ cfg1.N → sProp 𝕄
  | 0, _ => Pipeline.ΦA spec1 c
  | n + 1, hn => iprop(otherScoped (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS1_pos (c : Dev nD) (n : ℕ) (h : n ≤ cfg1.N) (hz : n ≠ 0) :
    PhiS1 V c n h = iprop(otherScoped (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's place among the 8 key blocks says which
    case it is in; the invariant hands the body the three scratch arrays at what the point before left (at anything at
    the very first point) and takes them back at this point's contents; an output block the case does not store is
    handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold outs1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_open c) $$ HΦ
      icases HΦ' with ⟨HR, HS0, HS1, HS2, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outs1_C; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold outs1_B; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch arrays' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine .trans ?_ (PhiA1_close c)
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

end Cert.Kernel.Hand

end
-- ==== Proof.WordTwoRegions.lean ====
/-
  The whole program on the machine: the projection region, then the attention region. The contents of the core's
  buffers at the two region boundaries (each region's arrays at what its write-backs leave, every other buffer as
  it was), each region as a segment of the program entered from the boundary before it and left at the one after,
  and the run: every weakly fair execution terminates, nothing faults, and every buffer that outlives the regions
  ends at the last boundary's contents. The argument arrays walk back through the boundaries to the launch memory.
-/
import proofs.«161902_j11218454577369_2_alg».proof.Proof.WordProjectData
import proofs.«161902_j11218454577369_2_alg».proof.Proof.WordFlashData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the projection region: its arrays at what the pipeline leaves, every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the attention region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: the projection region reads them through input windows, the attention region
    does not touch them -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

/-- The result array ends at what the attention region's write-backs leave in it. -/
theorem W2_main_v1 (c : Dev nD) : W2 m c (Proc.devRef .tc main_v1) = (dat1 (V1 m) c).arrAt 3 cfg1.N :=
  W2_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    refine .trans ?_ (hin1 (V1 m) c)
    unfold Pipeline.ΦA
    iintro ⟨Hp, -, Hr⟩
    isplitl [Hr]; · iexact Hr
    iexact Hp
  hout c := by
    rw [Pipeline.ownSems0_none]
    rw [show (pdats m 1 c).Φ (Fin.last _) = (dat1 (V1 m) c).Φ (Fin.last cfg1.N) from rfl]
    refine (hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

set_option backward.isDefEq.respectTransparency.types false in
/-- Every weakly fair execution of the program from memory m with zero counters terminates, nothing faulting, and
    every buffer that outlives the regions ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

/-- The run with the result named: the result array ends at what the attention region's write-backs leave. -/
theorem run_result : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

end Cert.Kernel.Hand

end
-- ==== Proof.ProjectBody.lean ====
/-
  The projection kernel (the first of the program's two kernel regions) on one core: at grid point t it reads
  rows 512·t … 512·t+511 of the activations and the three whole weight matrices, and stores the three products
  of that row block with the weights into its three output blocks. Stated for any float instance, at any
  contents V of the core's buffers when the region is entered.
-/
import proofs.«161902_j11218454577369_2_alg».proof.Proof.Gen.KernelIdeal.Launch
import proofs.«161902_j11218454577369_2_alg».proof.Proof.Gen.KernelIdeal.Skeleton
import proofs.«161902_j11218454577369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's two rectangles: a whole row block, a whole weight matrix -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-! ## What the body leaves in each output block: one whole-block store each -/

/-- The query block: the row block times the first weight matrix. -/
def outQ (x : Vec F S512x1024 .f32) (wq : Vec F S1024x1024 .f32) : Vec F S512x1024 .f32 :=
  View.canon [⟨rX, k0_pay1 (View.ld x rX) (View.ld wq rW)⟩]
/-- The key block: the row block times the second weight matrix. -/
def outK (x : Vec F S512x1024 .f32) (wk : Vec F S1024x1024 .f32) : Vec F S512x1024 .f32 :=
  View.canon [⟨rX, k0_pay2 (View.ld x rX) (View.ld wk rW)⟩]
/-- The value block: the row block times the third weight matrix, in the narrower float format. -/
def outV (x : Vec F S512x1024 .f32) (wv : Vec F S1024x1024 .f32) : Vec F S512x1024 .bf16 :=
  View.canon [⟨rX, k0_pay3 (View.ld x rX) (View.ld wv rW)⟩]

/-- One store through the whole block covers it. -/
theorem cover_f32 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y
theorem cover_bf16 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- On whole staging buffers, the four inputs at contents x, wq, wk, wv and the three outputs at anything, the body
    runs to the end leaving the inputs as they were and the outputs at the three products. -/
theorem sound_project (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x : Vec F S512x1024 .f32) (wq wk wv : Vec F S1024x1024 .f32) (K : PUnit → sProp 𝕄) :
    iprop(owns (c : Thread nD τ) arg1 fullShare x ∗ owns (c : Thread nD τ) arg2 fullShare wq ∗ owns (c : Thread nD τ) arg3 fullShare wk
        ∗ owns (c : Thread nD τ) arg4 fullShare wv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare wk
            ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E
          (cc0__project_kernel i arg1 harg1 arg2 harg2 arg3 harg3 arg4 harg4 arg5 harg5 arg6 harg6 arg7 harg7) K := by
  simp only [cc0__project_kernel_eq_skeleton]; unfold cc0__project_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  isplitl [H6]
  · iexists _; isplitr
    swap; · iexact H6
    ipureintro
    exact View.read_writes_eq_canon _ _ _ (cover_f32 _)
  iexists _; isplitr
  swap; · iexact H7
  ipureintro
  exact View.read_writes_eq_canon _ _ _ (cover_bf16 _)

end Cert.KernelIdeal.Hand

end
-- ==== Proof.ProjectData.lean ====
/-
  The projection region's proof data on one core: what each window's staging buffer holds after the body at every
  grid point (an input its block, an output the product of the point's row block with a weight matrix), that an
  input's buffer holds its block at every point whether or not the point fetched it, and the body obligation.
-/
import proofs.«161902_j11218454577369_2_alg».proof.Proof.ProjectBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input's current staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body at point t each input's buffer at its block and the three
    outputs' at the three products of the point's row block; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_project c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FlashRuns.lean ====
/-
  The attention kernel (the second of the program's two kernel regions) walks an 8 x 8 grid: point t = 8·qi + kv takes
  query block qi against key/value block kv. Its body has two conditionals on kv: at kv = 0 it resets the three
  arrays it carries from point to point (the running row maximum, the running denominator, the running numerator), and
  at kv = 7 it stores the quotient numerator / denominator into the output block. This module holds what the three
  control cases (kv = 0; 0 < kv < 7; kv = 7) share: the two conditions decided over the grid, where each window is
  idle, and the names of the staging and carried buffers.
-/
import proofs.«161902_j11218454577369_2_alg».proof.Proof.Gen.KernelIdeal.Launch
import proofs.«161902_j11218454577369_2_alg».proof.Proof.Gen.KernelIdeal.Skeleton
import proofs.«161902_j11218454577369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional's condition (reset the carried arrays), from the grid coordinates. -/
abbrev cond1_0 (i : grid1.Coords) : Prop := (Scalar.cmpi .ne (Scalar.extui (Scalar.cmpi .eq (BitVec.ofNat 32 (i 1).val) 0#32)) 0#32) = 1#1
/-- It holds exactly at the points with kv = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (store the output block), from the grid coordinates. -/
abbrev cond1_1 (i : grid1.Coords) : Prop := k1_cond2 i = 1#1
/-- It holds exactly at the points with kv = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At kv = 0 the output window is idle: nothing is stored into it. -/
theorem idleAt1_3_A : ∀ t : Fin cfg1.N, cond1_0 (grid1.coords t) → ¬cond1_1 (grid1.coords t) → cfg1.idle 3 (grid1.coords t) = true := by decide +kernel
/-- At kv = 0 the output block is not written back. -/
theorem noFlush1_3_A : ∀ t : Fin cfg1.N, cond1_0 (grid1.coords t) → ¬cond1_1 (grid1.coords t) → (cfg1.win 3).flush t = false := by decide +kernel
/-- At 0 < kv < 7 the output window is idle. -/
theorem idleAt1_3_B : ∀ t : Fin cfg1.N, ¬cond1_0 (grid1.coords t) → ¬cond1_1 (grid1.coords t) → cfg1.idle 3 (grid1.coords t) = true := by decide +kernel
/-- At 0 < kv < 7 the output block is not written back. -/
theorem noFlush1_3_B : ∀ t : Fin cfg1.N, ¬cond1_0 (grid1.coords t) → ¬cond1_1 (grid1.coords t) → (cfg1.win 3).flush t = false := by decide +kernel
/-- At kv = 7 the output window is live: the quotient is stored into it. -/
theorem liveAt1_3_C : ∀ t : Fin cfg1.N, ¬cond1_0 (grid1.coords t) → cond1_1 (grid1.coords t) → cfg1.idle 3 (grid1.coords t) = false := by decide +kernel

/-! ## The staging and carried buffers -/

/-- Each window's current staging buffer at point t, and that it is a whole buffer. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The running row maximum, as a whole buffer. -/
abbrev scM1_0 : Memref sig .tc .vmem S1024x1 .f32 := Memref.whole cc1_scratch0
/-- The running denominator. -/
abbrev scM1_1 : Memref sig .tc .vmem S1024x1 .f32 := Memref.whole cc1_scratch1
/-- The running numerator. -/
abbrev scM1_2 : Memref sig .tc .vmem S1024x1024 .f32 := Memref.whole cc1_scratch2
/-- The views through which the carried arrays' contents are stated. -/
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1024x1024 .f32 := (Memref.whole cc1_stg3_0 : Memref sig .tc .vmem S1024x1024 .f32).view

end Cert.KernelIdeal.Hand

end
-- ==== Proof.FlashRunA.lean ====
/-
  The attention kernel's body at a grid point with kv = 0: the first conditional is taken and resets the three carried
  arrays (the running maximum to minus infinity, the running denominator and numerator to zero) before the update; the
  second conditional is not taken, so the output block is not touched.
-/
import proofs.«161902_j11218454577369_2_alg».proof.Proof.FlashRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with kv = 0 (the reset taken, the output store not): on whole buffers, the three inputs at x0, x1, x2,
    the output block at any contents xi3, the carried arrays at anything, the body runs to the end leaving the inputs
    and the output block as they were and each carried array with its pieces written: the reset's store first, then
    the update's. The pieces are the witness the run finds; they do not mention what the carried arrays held. -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

/-! ## Each carried array is stored whole -/

/-- The pieces the body leaves in the running maximum at kv = 0 cover it. -/
theorem scover1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL _ S1024x1.size (by sl_kernel_rfl) y

/-- The pieces the body leaves in the running denominator at kv = 0 cover it. -/
theorem scover1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL _ S1024x1.size (by sl_kernel_rfl) y

/-- The pieces the body leaves in the running numerator at kv = 0 cover it. -/
theorem scover1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL _ S1024x1024.size (by sl_kernel_rfl) y

end Cert.KernelIdeal.Hand

end
-- ==== Proof.FlashRunB.lean ====
/-
  The attention kernel's body at a grid point with 0 < kv < 7: neither of its two conditionals is taken. It reads the
  query, key and value blocks and the three carried arrays, and stores the new running maximum, denominator and
  numerator; the output block is not touched.
-/
import proofs.«161902_j11218454577369_2_alg».proof.Proof.FlashRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with 0 < kv < 7 (neither conditional taken): on whole buffers, the three inputs at x0, x1, x2, the
    output block at any contents xi3, the carried arrays at what the point before left (xs0, xs1, xs2), the body runs
    to the end leaving the inputs and the output block as they were and each carried array with its pieces written.
    The pieces are the witness the run finds. -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

/-! ## Each carried array is stored whole -/

/-- The pieces the body leaves in the running maximum at 0 < kv < 7 cover it. -/
theorem scover1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL _ S1024x1.size (by sl_kernel_rfl) y

/-- The pieces the body leaves in the running denominator at 0 < kv < 7 cover it. -/
theorem scover1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL _ S1024x1.size (by sl_kernel_rfl) y

/-- The pieces the body leaves in the running numerator at 0 < kv < 7 cover it. -/
theorem scover1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL _ S1024x1024.size (by sl_kernel_rfl) y

end Cert.KernelIdeal.Hand

end
-- ==== Proof.FlashRunC.lean ====
/-
  The attention kernel's body at a grid point with kv = 7: the first conditional is not taken; after the update the
  second conditional is taken and stores the quotient numerator / denominator, row by row, into the output block.
-/
import proofs.«161902_j11218454577369_2_alg».proof.Proof.FlashRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point with kv = 7 (the reset not taken, the output store taken): on whole buffers, the three inputs at x0,
    x1, x2, the output block at anything, the carried arrays at what the point before left (xs0, xs1, xs2), the body
    runs to the end leaving the inputs as they were, each carried array with its pieces written, and the output block
    with its one piece written: the quotient of the new numerator by the new denominator. The pieces are the witness
    the run finds. -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

/-! ## The output block and each carried array are stored whole -/

/-- The one piece the body stores into the output block at kv = 7 covers it. -/
theorem cover1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL _ S1024x1024.size (by sl_kernel_rfl) y

/-- The pieces the body leaves in the running maximum at kv = 7 cover it. -/
theorem scover1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL _ S1024x1.size (by sl_kernel_rfl) y

/-- The pieces the body leaves in the running denominator at kv = 7 cover it. -/
theorem scover1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL _ S1024x1.size (by sl_kernel_rfl) y

/-- The pieces the body leaves in the running numerator at kv = 7 cover it. -/
theorem scover1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL _ S1024x1024.size (by sl_kernel_rfl) y

end Cert.KernelIdeal.Hand

end
-- ==== Proof.FlashData.lean ====
/-
  The attention region's proof data on one core. The kernel walks, for each block of 1024 query rows, the 8 blocks of
  1024 keys; it keeps the running row maximum, the running denominator and the running numerator in three scratch
  arrays that it resets at the first key block and carries to the next point, and stores the output block at the last
  key block. Here: what the output block's buffer and the three scratch arrays hold after every grid point (by
  recursion on the point), the region's invariant (the scratch arrays at what the point before left), and the body
  obligation, case by case.
-/
import proofs.«161902_j11218454577369_2_alg».proof.Proof.FlashRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- What case A leaves in the output block's buffer and in the three scratch arrays: its pieces read back. -/
def outs1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) : Vec F S1024x1024 .f32 × Vec F S1024x1 .f32 × Vec F S1024x1 .f32 × Vec F S1024x1024 .f32 :=
  (VO1_3.read (Elt F) (VO1_3.writes (Elt F) VO1_3.junk (kernelRun1_A c i arg2 harg2 arg3 harg3 arg4 harg4 arg5 harg5 arg6 harg6 arg7 harg7 arg8 harg8 hc0 hc1 x0 x1 x2).1),
   VS1_0.read (Elt F) (VS1_0.writes (Elt F) VS1_0.junk (kernelRun1_A c i arg2 harg2 arg3 harg3 arg4 harg4 arg5 harg5 arg6 harg6 arg7 harg7 arg8 harg8 hc0 hc1 x0 x1 x2).2.1),
   VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1),
   VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1))

/-- What case B leaves in the output block's buffer and in the three scratch arrays: its pieces read back. -/
def outs1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1),
   VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1),
   VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1),
   VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1))

/-- What case C leaves in the output block's buffer and in the three scratch arrays: its pieces read back. -/
def outs1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) : Vec F S1024x1024 .f32 × Vec F S1024x1 .f32 × Vec F S1024x1 .f32 × Vec F S1024x1024 .f32 :=
  (VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1),
   VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1),
   VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1),
   VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1))

/-! ## What the output block's buffer and the scratch arrays hold after each point -/

/-- By recursion on the point: the case the point is in, run on the point's blocks, the scratch arrays at what the
    point before left (at the first key block the kernel resets them first, so nothing earlier is read). -/
def outsAt1 (c : Dev nD) : (n : ℕ) → n < cfg1.N → Vec F S1024x1024 .f32 × Vec F S1024x1 .f32 × Vec F S1024x1 .f32 × Vec F S1024x1024 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 8 = 0 then
      outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 8 = 7 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = outs1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = outs1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outs1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers that are neither a staging buffer of this region nor one of its scratch arrays (the
    other region's staging buffers), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's invariant with the three scratch arrays named: the other scoped buffers, the three scratch arrays at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_open (c : Dev nD) :
    (Pipeline.ΦA spec1 c : sProp 𝕄) ⊢ iprop(otherScoped (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold otherScoped
  iintro ⟨⟨R0, R1, R2, R3, R4, R5, R6, R7, R8, R9, R10, H0, H1, H2⟩, Hg⟩
  isplitl [R0 R1 R2 R3 R4 R5 R6 R7 R8 R9 R10]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  isplitl [H0]; · iexact H0
  isplitl [H1]; · iexact H1
  isplitl [H2]; · iexact H2
  iexact Hg

theorem PhiA1_close (c : Dev nD) :
    iprop(otherScoped (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold otherScoped
  iintro ⟨⟨R0, R1, R2, R3, R4, R5, R6, R7, R8, R9, R10⟩, H0, H1, H2, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [H0]; · iexact H0
    isplitl [H1]; · iexact H1
    iexact H2
  iexact Hg

/-- Before the first point the class's invariant (every scratch array at anything); afterwards the other scoped
    buffers, the three scratch arrays at what the point before left, and the generator register at some state. -/
def PhiS1 (c : Dev nD) : (n : ℕ) → n ≤ cfg1.N → sProp 𝕄
  | 0, _ => Pipeline.ΦA spec1 c
  | n + 1, hn => iprop(otherScoped (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS1_pos (c : Dev nD) (n : ℕ) (h : n ≤ cfg1.N) (hz : n ≠ 0) :
    PhiS1 V c n h = iprop(otherScoped (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's place among the 8 key blocks says which
    case it is in; the invariant hands the body the three scratch arrays at what the point before left (at anything at
    the very first point) and takes them back at this point's contents; an output block the case does not store is
    handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold outs1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_open c) $$ HΦ
      icases HΦ' with ⟨HR, HS0, HS1, HS2, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outs1_C; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold outs1_B; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch arrays' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine .trans ?_ (PhiA1_close c)
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

end Cert.KernelIdeal.Hand

end
-- ==== Proof.TwoRegions.lean ====
/-
  The whole program on the machine: the projection region, then the attention region. The contents of the core's
  buffers at the two region boundaries (each region's arrays at what its write-backs leave, every other buffer as
  it was), each region as a segment of the program entered from the boundary before it and left at the one after,
  and the run: every weakly fair execution terminates, nothing faults, and every buffer that outlives the regions
  ends at the last boundary's contents. The argument arrays walk back through the boundaries to the launch memory.
-/
import proofs.«161902_j11218454577369_2_alg».proof.Proof.ProjectData
import proofs.«161902_j11218454577369_2_alg».proof.Proof.FlashData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the projection region: its arrays at what the pipeline leaves, every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the attention region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: the projection region reads them through input windows, the attention region
    does not touch them -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

/-- The result array ends at what the attention region's write-backs leave in it. -/
theorem W2_main_v1 (c : Dev nD) : W2 m c (Proc.devRef .tc main_v1) = (dat1 (V1 m) c).arrAt 3 cfg1.N :=
  W2_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    refine .trans ?_ (hin1 (V1 m) c)
    unfold Pipeline.ΦA
    iintro ⟨Hp, -, Hr⟩
    isplitl [Hr]; · iexact Hr
    iexact Hp
  hout c := by
    rw [Pipeline.ownSems0_none]
    rw [show (pdats m 1 c).Φ (Fin.last _) = (dat1 (V1 m) c).Φ (Fin.last cfg1.N) from rfl]
    refine (hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

set_option backward.isDefEq.respectTransparency.types false in
/-- Every weakly fair execution of the program from memory m with zero counters terminates, nothing faulting, and
    every buffer that outlives the regions ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

/-- The run with the result named: the result array ends at what the attention region's write-backs leave. -/
theorem run_result : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

end Cert.KernelIdeal.Hand

end
-- ==== Proof.Spec.lean ====
/-
  The attention map, entry by entry, as ONE function of the four argument arrays over the extended reals.

  With `x` the [8192, 1024] activations and `wq`, `wk`, `wv` the three [1024, 1024] weight matrices:
    proj x w t d   = Σ_k x(t, k) · w(k, d)                      (a row of x against a column of w),
    score p t      = (Σ_d proj x wq p d · proj x wk t d) · scale  (the scaled inner product of query p and key t),
    rowMax p       = max(−∞, the maximum over t of score p t, folded from −∞),
    weight p t     = exp(score p t − rowMax p),
    denom p        = 0 + Σ_t weight p t,
    entry p j      = Σ_t (weight p t / denom p) · proj x wv t j.
  The scale is 1 / √1024, kept as the quotient of the two f32 words; `scale_eq` evaluates it to the f32 word of 1/32.
-/
import Idealize.ShloMosaic.PureOps.Ideal
import Idealize.ShloMosaic.Lib.ValueIdx
import Idealize.ShloMosaic.Lib.IdealHost

noncomputable section

open scoped BigOperators

namespace Cert.Spec

open Idealize.ShloMosaic Idealize.ShloMosaic.ValueIdx

/-- The contents of an [8192, 1024] array of f32 at the extended reals. -/
abbrev Act : Type := (⟨⟨2, ![8192, 1024]⟩, .f32⟩ : BufTy).Contents (Elt Ideal)
/-- The contents of a [1024, 1024] array of f32 at the extended reals. -/
abbrev Wt : Type := (⟨⟨2, ![1024, 1024]⟩, .f32⟩ : BufTy).Contents (Elt Ideal)

/-- Row `t` of `x` against column `d` of `w`. -/
def proj (x : Act) (w : Wt) (t : Fin 8192) (d : Fin 1024) : EReal :=
  ∑ k : Fin 1024, x (ix2 t k) * w (ix2 k d)

/-- The score scale 1 / √1024, as the quotient of the f32 words of 1 and of 1024 under the square root. -/
def scale : EReal :=
  Ideal.div (Ideal.ofBits .f32 0x3F800000#32) (Ideal.sqrt (Ideal.ofBits .f32 0x44800000#32))

/-- The scaled inner product of query row `p` and key row `t`. -/
def score (x : Act) (wq wk : Wt) (p t : Fin 8192) : EReal :=
  (∑ d : Fin 1024, proj x wq p d * proj x wk t d) * scale

/-- The largest score of row `p`: the fold of `max` over the keys from −∞, once more against −∞. -/
def rowMax (x : Act) (wq wk : Wt) (p : Fin 8192) : EReal :=
  max (Ideal.ofBits .f32 0xFF800000#32)
    ((Finset.univ : Finset (Fin 8192)).fold max (Ideal.ofBits .f32 0xFF800000#32) (fun t => score x wq wk p t))

/-- The exponential of a score shifted by its row's largest. -/
def weight (x : Act) (wq wk : Wt) (p t : Fin 8192) : EReal :=
  Ideal.exp (score x wq wk p t - rowMax x wq wk p)

/-- The sum of a row's weights, from the zero word. -/
def denom (x : Act) (wq wk : Wt) (p : Fin 8192) : EReal :=
  Ideal.ofBits .f32 0x00000000#32 + ∑ t : Fin 8192, weight x wq wk p t

/-- Entry `(p, j)` of the attention map: the normalized weights of row `p` against column `j` of the values. -/
def entry (x : Act) (wq wk wv : Wt) (p : Fin 8192) (j : Fin 1024) : EReal :=
  ∑ t : Fin 8192, Ideal.div (weight x wq wk p t) (denom x wq wk p) * proj x wv t j

/-- The attention map as an [8192, 1024] array. -/
def attn (x : Act) (wq wk wv : Wt) : Act := fun i => entry x wq wk wv (i 0) (i 1)

/-- The array at the index with coordinates `(p, j)`. -/
theorem attn_apply (x : Act) (wq wk wv : Wt) (p : Fin 8192) (j : Fin 1024) :
    attn x wq wk wv (ix2 p j) = entry x wq wk wv p j := rfl

/-- The f32 word `0x44800000` is 1024. -/
theorem ofBits_1024_f32 : Ideal.ofBits .f32 0x44800000#32 = ((1024 : ℝ) : EReal) := by
  simp [Ideal.ofBits, Ideal.ieee, -EReal.coe_mul]; norm_num

/-- The f32 word `0x3D000000` is 1/32. -/
theorem ofBits_thirtysecond_f32 : Ideal.ofBits .f32 0x3D000000#32 = (((1 : ℝ) / 32 : ℝ) : EReal) := by
  simp [Ideal.ofBits, Ideal.ieee, -EReal.coe_mul]; norm_num

/-- √1024 = 32. -/
theorem sqrt_1024 : Real.sqrt 1024 = 32 := by
  rw [show (1024 : ℝ) = 32 ^ 2 by norm_num]
  exact Real.sqrt_sq (by norm_num)

/-- The scale is the f32 word of 1/32. -/
theorem scale_eq : scale = Ideal.ofBits .f32 0x3D000000#32 := by
  unfold scale
  rw [Ideal.ofBits_one_f32, ofBits_1024_f32, ofBits_thirtysecond_f32, Ideal.sqrt_coe, if_neg (by norm_num), sqrt_1024,
    Ideal.div_coe (by norm_num), one_mul]

end Cert.Spec

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.ProjectValue.lean ====
/-
  The projection region's three output arrays, entry by entry, over the extended reals.

  At grid point t the body multiplies rows 512·t … 512·t+511 of the activations by a whole weight matrix, so entry
  (r, q) of the block it leaves is Σ_k x(512·t + r, k) · w(k, q): row 512·t + r of the activations against column q of
  the weights. Point t's block of an output array is rows 512·t … 512·t+511, so what the point writes back is that
  block of ONE function of the two argument arrays, `projArr x w (p, q) = Σ_k x(p, k) · w(k, q)`; row p lies in the
  block of point p / 512, the sixteen blocks tile the array, and the array ends holding `projArr`. The third product is
  taken after a change of float format of both operands and followed by another; over the extended reals a change of
  format is the identity, so the third array is the same function of the activations and the third weight matrix.
-/
import proofs.«161902_j11218454577369_2_alg».proof.Proof.ProjectData
import proofs.«161902_j11218454577369_2_alg».proof.Proof.Spec
import proofs.«161902_j11218454577369_2_alg».proof.Proof.LibPlainDot
import Idealize.ShloMosaic.Lib.Pipeline.Value
import Idealize.ShloMosaic.Lib.ValueIdx

noncomputable section

open scoped BigOperators

namespace Cert.KernelIdeal.ProjectValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The function the three arrays end holding -/

/-- Rows of `x` against columns of `w`, as an [8192, 1024] array. -/
def projArr (x : Spec.Act) (w : Spec.Wt) : (⟨2, ![8192, 1024]⟩ : Shape).Idx → EReal :=
  fun i => Spec.proj x w (i 0) (i 1)

theorem projArr_apply (x : Spec.Act) (w : Spec.Wt) (p : Fin 8192) (q : Fin 1024) :
    projArr x w (ix2 p q) = Spec.proj x w p q := rfl

/-! ## The body's products at an entry -/

theorem hz : (![0, 0] : Fin 2 → Nat) = fun _ => 0 := funext fun a => by fin_cases a <;> rfl

/-- The first product at `(r, q)`. -/
theorem pay1_apply (x : Vec Ideal S512x1024 .f32) (w : Vec Ideal S1024x1024 .f32) (r : Fin 512) (q : Fin 1024) :
    k0_pay1 (F := Ideal) x w (ix2 r q) = ∑ k : Fin 1024, x (ix2 r k) * w (ix2 k q) := by
  unfold k0_pay1
  exact LibPlainDot.matmul_plain_apply dot_S512x1024_S1024x1024_S512x1024_1_0_0_1_n_n rfl rfl rfl rfl rfl rfl
    (some .fp32) x w r q

/-- The second product at `(r, q)`. -/
theorem pay2_apply (x : Vec Ideal S512x1024 .f32) (w : Vec Ideal S1024x1024 .f32) (r : Fin 512) (q : Fin 1024) :
    k0_pay2 (F := Ideal) x w (ix2 r q) = ∑ k : Fin 1024, x (ix2 r k) * w (ix2 k q) := by
  unfold k0_pay2
  exact LibPlainDot.matmul_plain_apply dot_S512x1024_S1024x1024_S512x1024_1_0_0_1_n_n rfl rfl rfl rfl rfl rfl
    (some .fp32) x w r q

/-- The third product at `(r, q)`: the changes of float format are the identity. -/
theorem pay3_apply (x : Vec Ideal S512x1024 .f32) (w : Vec Ideal S1024x1024 .f32) (r : Fin 512) (q : Fin 1024) :
    k0_pay3 (F := Ideal) x w (ix2 r q) = ∑ k : Fin 1024, x (ix2 r k) * w (ix2 k q) := by
  unfold k0_pay3
  exact LibPlainDot.matmul_plain_apply dot_S512x1024_S1024x1024_S512x1024_1_0_0_1_n_n rfl rfl rfl rfl rfl rfl
    none (truncf .bf16 x (by decide)) (truncf .bf16 w (by decide)) r q

/-- What the body leaves in the query block, at `(r, q)`. -/
theorem outQ_apply (x : Vec Ideal S512x1024 .f32) (w : Vec Ideal S1024x1024 .f32) (r : Fin 512) (q : Fin 1024) :
    outQ (F := Ideal) x w (ix2 r q) = ∑ k : Fin 1024, x (ix2 r k) * w (ix2 k q) := by
  unfold outQ
  rw [View.canon_unit_zero hz, View.ld_unit_zero (S := S512x1024) hz, View.ld_unit_zero (S := S1024x1024) hz]
  exact pay1_apply x w r q

/-- What the body leaves in the key block, at `(r, q)`. -/
theorem outK_apply (x : Vec Ideal S512x1024 .f32) (w : Vec Ideal S1024x1024 .f32) (r : Fin 512) (q : Fin 1024) :
    outK (F := Ideal) x w (ix2 r q) = ∑ k : Fin 1024, x (ix2 r k) * w (ix2 k q) := by
  unfold outK
  rw [View.canon_unit_zero hz, View.ld_unit_zero (S := S512x1024) hz, View.ld_unit_zero (S := S1024x1024) hz]
  exact pay2_apply x w r q

/-- What the body leaves in the value block, at `(r, q)`. -/
theorem outV_apply (x : Vec Ideal S512x1024 .f32) (w : Vec Ideal S1024x1024 .f32) (r : Fin 512) (q : Fin 1024) :
    outV (F := Ideal) x w (ix2 r q) = ∑ k : Fin 1024, x (ix2 r k) * w (ix2 k q) := by
  unfold outV
  rw [View.canon_unit_zero hz, View.ld_unit_zero (S := S512x1024) hz, View.ld_unit_zero (S := S1024x1024) hz]
  exact pay3_apply x w r q

/-! ## A block's product as a block of `projArr`

Stated over variables: `x` is rows 512·n … 512·n+511 of `X`, `w` is `W`; then entry `(r, q)` of the product is
`projArr X W` at the array index `i` whose row is 512·n + r and whose column is q. -/

theorem block_sum (x : Vec Ideal S512x1024 .f32) (w : Vec Ideal S1024x1024 .f32) (X : Spec.Act) (W : Spec.Wt)
    (n : Nat) (hn : n < 16)
    (hx : ∀ (r : Fin 512) (k : Fin 1024), x (ix2 r k) = X (ix2 (⟨512 * n + r.val, by omega⟩ : Fin 8192) k))
    (hw : ∀ (k q : Fin 1024), w (ix2 k q) = W (ix2 k q))
    (r : Fin 512) (q : Fin 1024) (i : S8192x1024.Idx) (h0 : (i 0).val = 512 * n + r.val) (h1 : (i 1).val = q.val) :
    ∑ k : Fin 1024, x (ix2 r k) * w (ix2 k q) = projArr X W i := by
  have hi : i = ix2 (⟨512 * n + r.val, by omega⟩ : Fin 8192) q :=
    funext fun a => Fin.ext (by match a with | ⟨0, _⟩ => exact h0 | ⟨1, _⟩ => exact h1)
  rw [hi, projArr_apply]
  unfold Spec.proj
  exact Finset.sum_congr rfl fun k _ => by rw [hx, hw]

/-- A product block as a block of `projArr`, for each of the three outputs. -/
theorem outQ_block (x : Vec Ideal S512x1024 .f32) (w : Vec Ideal S1024x1024 .f32) (X : Spec.Act) (W : Spec.Wt)
    (n : Nat) (hn : n < 16)
    (hx : ∀ (r : Fin 512) (k : Fin 1024), x (ix2 r k) = X (ix2 (⟨512 * n + r.val, by omega⟩ : Fin 8192) k))
    (hw : ∀ (k q : Fin 1024), w (ix2 k q) = W (ix2 k q))
    (r : Fin 512) (q : Fin 1024) (i : S8192x1024.Idx) (h0 : (i 0).val = 512 * n + r.val) (h1 : (i 1).val = q.val) :
    outQ (F := Ideal) x w (ix2 r q) = projArr X W i :=
  (outQ_apply x w r q).trans (block_sum x w X W n hn hx hw r q i h0 h1)
theorem outK_block (x : Vec Ideal S512x1024 .f32) (w : Vec Ideal S1024x1024 .f32) (X : Spec.Act) (W : Spec.Wt)
    (n : Nat) (hn : n < 16)
    (hx : ∀ (r : Fin 512) (k : Fin 1024), x (ix2 r k) = X (ix2 (⟨512 * n + r.val, by omega⟩ : Fin 8192) k))
    (hw : ∀ (k q : Fin 1024), w (ix2 k q) = W (ix2 k q))
    (r : Fin 512) (q : Fin 1024) (i : S8192x1024.Idx) (h0 : (i 0).val = 512 * n + r.val) (h1 : (i 1).val = q.val) :
    outK (F := Ideal) x w (ix2 r q) = projArr X W i :=
  (outK_apply x w r q).trans (block_sum x w X W n hn hx hw r q i h0 h1)
theorem outV_block (x : Vec Ideal S512x1024 .f32) (w : Vec Ideal S1024x1024 .f32) (X : Spec.Act) (W : Spec.Wt)
    (n : Nat) (hn : n < 16)
    (hx : ∀ (r : Fin 512) (k : Fin 1024), x (ix2 r k) = X (ix2 (⟨512 * n + r.val, by omega⟩ : Fin 8192) k))
    (hw : ∀ (k q : Fin 1024), w (ix2 k q) = W (ix2 k q))
    (r : Fin 512) (q : Fin 1024) (i : S8192x1024.Idx) (h0 : (i 0).val = 512 * n + r.val) (h1 : (i 1).val = q.val) :
    outV (F := Ideal) x w (ix2 r q) = projArr X W i :=
  (outV_apply x w r q).trans (block_sum x w X W n hn hx hw r q i h0 h1)

/-! ## The windows' block indices over the grid -/

theorem tlt (t : Fin cfg0.N) : t.val < 16 := Nat.lt_of_lt_of_eq t.isLt N_0

/-- The activations' window and the three outputs' windows are at block row t, block column 0, at point t; the
    weights' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as rows of the argument arrays -/

variable (V : (c : Dev nD) → (b : Ref sig .tc) → Buf (Elt Ideal) ((c : Thread nD τ).loc b))

/-- The activations' block at point t is rows 512·t … 512·t+511 of the activations. -/
theorem iblk_x (c : Dev nD) (t : Fin cfg0.N) (r : Fin 512) (k : Fin 1024) :
    (iblk0 V c 0 t : S512x1024.Idx → EReal) (ix2 r k)
      = (V c main_arg0 : S8192x1024.Idx → EReal) (ix2 (⟨512 * t.val + r.val, by have := tlt t; omega⟩ : Fin 8192) k) := by
  obtain ⟨e0, e1, -⟩ := idx_facts t
  unfold iblk0
  rw [View.read_apply]
  show (V c main_arg0 : S8192x1024.Idx → EReal) _ = _
  refine congrArg (V c main_arg0 : S8192x1024.Idx → EReal) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega

/-- Each weight window's block at any point is the whole weight matrix. -/
theorem iblk_w1 (c : Dev nD) (t : Fin cfg0.N) (k q : Fin 1024) :
    (iblk0 V c 1 t : S1024x1024.Idx → EReal) (ix2 k q) = (V c main_arg1 : S1024x1024.Idx → EReal) (ix2 k q) := by
  obtain ⟨-, -, e0, e1, -⟩ := idx_facts t
  unfold iblk0
  rw [View.read_apply]
  show (V c main_arg1 : S1024x1024.Idx → EReal) _ = _
  refine congrArg (V c main_arg1 : S1024x1024.Idx → EReal) (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * q.val = q.val; rw [e1]; omega
theorem iblk_w2 (c : Dev nD) (t : Fin cfg0.N) (k q : Fin 1024) :
    (iblk0 V c 2 t : S1024x1024.Idx → EReal) (ix2 k q) = (V c main_arg2 : S1024x1024.Idx → EReal) (ix2 k q) := by
  obtain ⟨-, -, -, -, e0, e1, -⟩ := idx_facts t
  unfold iblk0
  rw [View.read_apply]
  show (V c main_arg2 : S1024x1024.Idx → EReal) _ = _
  refine congrArg (V c main_arg2 : S1024x1024.Idx → EReal) (funext fun a => Fin.ext ?_)
  match a with
  | ⟨0, _⟩ => show win0_2.index t (0 : Fin 2) * 1024 + 1 * k.val = k.val; rw [e0]; omega
  | ⟨1, _⟩ => show win0_2.index t (1 : Fin 2) * 1024 + 1 * q.val = q.val; rw [e1]; omega
theorem iblk_w3 (c : Dev nD) (t : Fin cfg0.N) (k q : Fin 1024) :
    (iblk0 V c 3 t : S1024x1024.Idx → EReal) (ix2 k q) = (V c main_arg3 : S1024x1024.Idx → EReal) (ix2 k q) := by
  obtain ⟨-, -, -, -, -, -, e0, e1, -⟩ := idx_facts t
  unfold iblk0
  rw [View.read_apply]
  show (V c main_arg3 : S1024x1024.Idx → EReal) _ = _
  refine congrArg (V c main_arg3 : S1024x1024.Idx → EReal) (funext fun a => Fin.ext ?_)
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega

/-! ## What point t writes back is block t of `projArr` -/

theorem flushedQ_eq (c : Dev nD) (t : Fin cfg0.N) :
    (dat0 V c).flushed 4 t = ((cfg0.win 4).blk t).view.read (Elt Ideal) (projArr (V c main_arg0) (V c main_arg1)) := by
  show (cfg0.win 4).cut (grid0.coords t) ((dat0 V c).after 4 t) = _
  rw [after0_4]
  obtain ⟨-, -, -, -, -, -, -, -, e0, e1, -⟩ := idx_facts t
  funext j
  have hxj : ((cfg0.win 4).xinj (grid0.coords t) j : S512x1024.Idx)
      = ix2 (⟨(j 0).val, (j 0).isLt⟩ : Fin 512) (⟨(j 1).val, (j 1).isLt⟩ : Fin 1024) :=
    funext fun a => Fin.ext (by match a with | ⟨0, _⟩ => rfl | ⟨1, _⟩ => rfl)
  rw [View.read_apply]
  show outQ (iblk0 V c 0 t) (iblk0 V c 1 t) ((cfg0.win 4).xinj (grid0.coords t) j)
    = projArr (V c main_arg0) (V c main_arg1) (((cfg0.win 4).blk t).view.emb j)
  refine (congrArg (outQ (F := Ideal) (iblk0 V c 0 t) (iblk0 V c 1 t)) hxj).trans ?_
  refine outQ_block (iblk0 V c 0 t) (iblk0 V c 1 t) (V c main_arg0) (V c main_arg1) t.val (tlt t)
    (iblk_x V c t) (iblk_w1 V c t) _ _ _ ?_ ?_
  · show win0_4.index t (0 : Fin 2) * 512 + 1 * (j 0).val = 512 * t.val + (j 0).val; rw [e0]; omega
  · show win0_4.index t (1 : Fin 2) * 1024 + 1 * (j 1).val = (j 1).val; rw [e1]; omega

theorem flushedK_eq (c : Dev nD) (t : Fin cfg0.N) :
    (dat0 V c).flushed 5 t = ((cfg0.win 5).blk t).view.read (Elt Ideal) (projArr (V c main_arg0) (V c main_arg2)) := by
  show (cfg0.win 5).cut (grid0.coords t) ((dat0 V c).after 5 t) = _
  rw [after0_5]
  obtain ⟨-, -, -, -, -, -, -, -, -, -, e0, e1, -⟩ := idx_facts t
  funext j
  have hxj : ((cfg0.win 5).xinj (grid0.coords t) j : S512x1024.Idx)
      = ix2 (⟨(j 0).val, (j 0).isLt⟩ : Fin 512) (⟨(j 1).val, (j 1).isLt⟩ : Fin 1024) :=
    funext fun a => Fin.ext (by match a with | ⟨0, _⟩ => rfl | ⟨1, _⟩ => rfl)
  rw [View.read_apply]
  show outK (iblk0 V c 0 t) (iblk0 V c 2 t) ((cfg0.win 5).xinj (grid0.coords t) j)
    = projArr (V c main_arg0) (V c main_arg2) (((cfg0.win 5).blk t).view.emb j)
  refine (congrArg (outK (F := Ideal) (iblk0 V c 0 t) (iblk0 V c 2 t)) hxj).trans ?_
  refine outK_block (iblk0 V c 0 t) (iblk0 V c 2 t) (V c main_arg0) (V c main_arg2) t.val (tlt t)
    (iblk_x V c t) (iblk_w2 V c t) _ _ _ ?_ ?_
  · show win0_5.index t (0 : Fin 2) * 512 + 1 * (j 0).val = 512 * t.val + (j 0).val; rw [e0]; omega
  · show win0_5.index t (1 : Fin 2) * 1024 + 1 * (j 1).val = (j 1).val; rw [e1]; omega

theorem flushedV_eq (c : Dev nD) (t : Fin cfg0.N) :
    (dat0 V c).flushed 6 t = ((cfg0.win 6).blk t).view.read (Elt Ideal) (projArr (V c main_arg0) (V c main_arg3)) := by
  show (cfg0.win 6).cut (grid0.coords t) ((dat0 V c).after 6 t) = _
  rw [after0_6]
  obtain ⟨-, -, -, -, -, -, -, -, -, -, -, -, e0, e1⟩ := idx_facts t
  funext j
  have hxj : ((cfg0.win 6).xinj (grid0.coords t) j : S512x1024.Idx)
      = ix2 (⟨(j 0).val, (j 0).isLt⟩ : Fin 512) (⟨(j 1).val, (j 1).isLt⟩ : Fin 1024) :=
    funext fun a => Fin.ext (by match a with | ⟨0, _⟩ => rfl | ⟨1, _⟩ => rfl)
  rw [View.read_apply]
  show outV (iblk0 V c 0 t) (iblk0 V c 3 t) ((cfg0.win 6).xinj (grid0.coords t) j)
    = projArr (V c main_arg0) (V c main_arg3) (((cfg0.win 6).blk t).view.emb j)
  refine (congrArg (outV (F := Ideal) (iblk0 V c 0 t) (iblk0 V c 3 t)) hxj).trans ?_
  refine outV_block (iblk0 V c 0 t) (iblk0 V c 3 t) (V c main_arg0) (V c main_arg3) t.val (tlt t)
    (iblk_x V c t) (iblk_w3 V c t) _ _ _ ?_ ?_
  · show win0_6.index t (0 : Fin 2) * 512 + 1 * (j 0).val = 512 * t.val + (j 0).val; rw [e0]; omega
  · show win0_6.index t (1 : Fin 2) * 1024 + 1 * (j 1).val = (j 1).val; rw [e1]; omega

/-! ## The sixteen blocks tile each output array -/

/-- An index of the array is in point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v0_0).slice (win0_4.rect t)).set ↔ _
  rw [View.set_slice_whole, Rect.mem_set_unit]
  exact Iff.rfl
theorem mem_blk5 (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v0_1).slice (win0_5.rect t)).set ↔ _
  rw [View.set_slice_whole, Rect.mem_set_unit]
  exact Iff.rfl
theorem mem_blk6 (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v0_2).slice (win0_6.rect t)).set ↔ _
  rw [View.set_slice_whole, Rect.mem_set_unit]
  exact Iff.rfl

/-- Row p lies in the block of point p / 512. -/
theorem cover4 (i : S8192x1024.Idx) :
    ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 16) N_0.symm⟩, rfl⟩
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1024 ≤ (i 1).val ∧ (i 1).val < win0_4.index t (1 : Fin 2) * 1024 + 1024
    rw [e1]; omega
theorem cover5 (i : S8192x1024.Idx) :
    ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 16) N_0.symm⟩, rfl⟩
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega
theorem cover6 (i : S8192x1024.Idx) :
    ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 16) N_0.symm⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1024 ≤ (i 1).val ∧ (i 1).val < win0_6.index t (1 : Fin 2) * 1024 + 1024
    rw [e1]; omega

/-! ## The three arrays after the region -/

/-- The query array ends holding the activations against the first weight matrix. -/
theorem arrQ (c : Dev nD) : (dat0 V c).arrAt 4 cfg0.N = projArr (V c main_arg0) (V c main_arg1) :=
  (dat0 V c).arrAt_eq_of_cover 4 (projArr (V c main_arg0) (V c main_arg1)) (fun t _ => flushedQ_eq V c t) cover4

/-- The key array ends holding the activations against the second weight matrix. -/
theorem arrK (c : Dev nD) : (dat0 V c).arrAt 5 cfg0.N = projArr (V c main_arg0) (V c main_arg2) :=
  (dat0 V c).arrAt_eq_of_cover 5 (projArr (V c main_arg0) (V c main_arg2)) (fun t _ => flushedK_eq V c t) cover5

/-- The value array ends holding the activations against the third weight matrix. -/
theorem arrV (c : Dev nD) : (dat0 V c).arrAt 6 cfg0.N = projArr (V c main_arg0) (V c main_arg3) :=
  (dat0 V c).arrAt_eq_of_cover 6 (projArr (V c main_arg0) (V c main_arg3)) (fun t _ => flushedV_eq V c t) cover6

/-- The same, entry by entry. -/
theorem arrQ_apply (c : Dev nD) (i : S8192x1024.Idx) :
    ((dat0 V c).arrAt 4 cfg0.N : S8192x1024.Idx → EReal) i = Spec.proj (V c main_arg0) (V c main_arg1) (i 0) (i 1) :=
  congrFun (arrQ V c) i
theorem arrK_apply (c : Dev nD) (i : S8192x1024.Idx) :
    ((dat0 V c).arrAt 5 cfg0.N : S8192x1024.Idx → EReal) i = Spec.proj (V c main_arg0) (V c main_arg2) (i 0) (i 1) :=
  congrFun (arrK V c) i
theorem arrV_apply (c : Dev nD) (i : S8192x1024.Idx) :
    ((dat0 V c).arrAt 6 cfg0.N : S8192x1024.Idx → EReal) i = Spec.proj (V c main_arg0) (V c main_arg3) (i 0) (i 1) :=
  congrFun (arrV V c) i

end Cert.KernelIdeal.ProjectValue

end
-- ==== Proof.FlashPieces.lean ====
/-
  What the attention kernel's body leaves in each buffer, case by case, as values: every buffer the body stores into is
  stored whole, so what it holds afterwards is the payload of its last store, and every load reads either a buffer's
  contents when the body started or the payload of the one store made before it. Read this way, at a point with
  0 < kv the carried arrays hold the online-softmax update of what they held (new maximum; denominator and numerator
  rescaled to it and increased by this key/value block's share), at kv = 0 the same update of the reset values
  (minus infinity, zero, zero), and at kv = 7 the output block holds the new numerator divided by the new denominator.
  The statements hold for any float instance.
-/
import proofs.«161902_j11218454577369_2_alg».proof.Proof.FlashRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole-buffer rectangle, as a function. -/
theorem flash_hz : (![0, 0] : Fin 2 → Nat) = fun _ => 0 := funext fun a => by fin_cases a <;> rfl

/-! ## kv = 0: the update of the reset values -/

/-- At kv = 0 the running maximum is reset to minus infinity and then left at the maximum of that and the row maxima of the scaled scores: the later of its two stores is what it holds. -/
theorem pieces1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) :
    VS1_0.read (Elt F) (VS1_0.writes (Elt F) VS1_0.junk (kernelRun1_A c i arg2 harg2 arg3 harg3 arg4 harg4 arg5 harg5 arg6 harg6 arg7 harg7 arg8 harg8 hc0 hc1 x0 x1 x2).2.1) = k1_pay2 (k1_pay8 x0 x1 (k1_pay4 (F := F))) := by
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

/-- At kv = 0 the running denominator is reset to zero and then left at the update of that reset value. -/
theorem pieces1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) :
    VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1) = k1_pay11 x0 x1 (k1_pay4 (F := F)) (k1_pay4 (F := F)) (k1_pay5 (F := F)) := by
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

/-- At kv = 0 the running numerator is reset to zero and then left at the update of that reset value. -/
theorem pieces1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S1024x1024 .bf16) :
    VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1) = k1_pay1 (k1_pay12 x0 x1 (k1_pay4 (F := F)) (k1_pay4 (F := F)) (k1_pay6 (F := F))) (k1_pay13 x0 x1 (k1_pay4 (F := F))) (k1_pay14 x2) := by
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1024) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

/-! ## 0 < kv < 7: the update of the carried values -/

/-- At 0 < kv < 7 the running maximum is left at the maximum of what it held and the row maxima of the scaled scores of the query block against the key block. -/
theorem pieces1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1) = k1_pay2 (k1_pay8 x0 x1 xs0) := by
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero (S := S1024x1) flash_hz]
  simp only [View.readAt_eq_ld, harg2.read_unread, harg3.read_unread, harg4.read_unread, harg6.read_unread, harg7.read_unread, harg8.read_unread, View.ld_unit_zero (S := S1024x1024) flash_hz, View.ld_unit_zero (S := S1024x1) flash_hz]

/-- At 0 < kv < 7 the running denominator is left at what it held, rescaled to the new maximum, plus the row sums of the exponentials. -/
theorem pieces1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1) = k1_pay11 x0 x1 xs0 xs0 xs1 := by
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero (S := S1024x1) flash_hz]
  simp only [View.readAt_eq_ld, harg2.read_unread, harg3.read_unread, harg4.read_unread, harg6.read_unread, harg7.read_unread, harg8.read_unread, View.ld_unit_zero (S := S1024x1024) flash_hz, View.ld_unit_zero (S := S1024x1) flash_hz]

/-- At 0 < kv < 7 the running numerator is left at what it held, rescaled to the new maximum, plus the exponentials times the value block. -/
theorem pieces1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1) = k1_pay1 (k1_pay12 x0 x1 xs0 xs0 xs2) (k1_pay13 x0 x1 xs0) (k1_pay14 x2) := by
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero (S := S1024x1024) flash_hz]
  simp only [View.readAt_eq_ld, harg2.read_unread, harg3.read_unread, harg4.read_unread, harg6.read_unread, harg7.read_unread, harg8.read_unread, View.ld_unit_zero (S := S1024x1024) flash_hz, View.ld_unit_zero (S := S1024x1) flash_hz]

/-! ## kv = 7: the update, then the quotient -/

/-- At kv = 7 the running maximum is updated as at the points before. -/
theorem pieces1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1) = k1_pay2 (k1_pay8 x0 x1 xs0) := by
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x1) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

/-- At kv = 7 the running denominator is updated as at the points before. -/
theorem pieces1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1) = k1_pay11 x0 x1 xs0 xs0 xs1 := by
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x1) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

/-- At kv = 7 the running numerator is updated as at the points before. -/
theorem pieces1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1) = k1_pay1 (k1_pay12 x0 x1 xs0 xs0 xs2) (k1_pay13 x0 x1 xs0) (k1_pay14 x2) := by
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x1024) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

/-- At kv = 7 the output block is left at the numerator the point has just stored divided, row by row, by the denominator it has just stored. -/
theorem pieces1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S1024x1024 .bf16) (xs0 : Vec F S1024x1 .f32) (xs1 : Vec F S1024x1 .f32) (xs2 : Vec F S1024x1024 .f32) :
    VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1) = k1_pay3 (k1_pay1 (k1_pay12 x0 x1 xs0 xs0 xs2) (k1_pay13 x0 x1 xs0) (k1_pay14 x2)) (k1_pay11 x0 x1 xs0 xs0 xs1) := by
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x1024) flash_hz]
  simp only [View.readCov_unit_zero (S := S1024x1) arg6.view flash_hz, View.readCov_unit_zero (S := S1024x1) arg7.view flash_hz, View.readCov_unit_zero (S := S1024x1024) arg8.view flash_hz, View.readAt_eq_ld, harg2.read_unread, harg3.read_unread, harg4.read_unread, harg6.read_unread, harg7.read_unread, harg8.read_unread, View.ld_unit_zero (S := S1024x1024) flash_hz, View.ld_unit_zero (S := S1024x1) flash_hz]

end Cert.KernelIdeal.Hand

end
-- ==== Proof.LibOnlineSoftmax.lean ====
/-
  The online-softmax law over the extended reals.

  A row of scores is walked in blocks. Per block the running maximum m, the running denominator l
  and the running numerator acc are updated by
      m'   = max m (max of the block)
      a    = exp (m - m')
      l'   = a * l   + Σ_t exp (s t - m')
      acc' = a * acc + Σ_t exp (s t - m') * v t
  starting from m = -∞, l = 0, acc = 0, and the result is acc / l. The max-shifted softmax over the
  whole row, M the row's maximum, e x = exp (s x - M), L = 0 + Σ e, result = Σ_x (e x / L) * v x,
  is the same extended real whenever every score and value is finite: after k ≥ 1 blocks the state is
  (μ, Σ exp (s - μ), Σ exp (s - μ) v) for a real μ, because exp (μ - μ') * exp (s - μ) = exp (s - μ');
  at the first block a = exp (-∞) = 0 multiplies l = acc = 0; the final m and M have the same upper
  bounds, so they are equal; and (Σ e v) / L = Σ (e / L) v for the positive real L.

  The operations are the ideal instance's: x - y, x * y, x + y, max x y of the extended reals,
  Ideal.exp and Ideal.div (one function for a kernel's division and the host's).
-/
import Idealize.ShloMosaic.PureOps.Ideal

open scoped BigOperators
open Idealize.ShloMosaic

noncomputable section

namespace OnlineSoftmax

/-! ### Coercions -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- exp of a difference of two reals, read in the extended reals. -/
theorem exp_coe_sub (x y : ℝ) : Ideal.exp ((x : EReal) - (y : EReal)) = ((Real.exp (x - y) : ℝ) : EReal) := rfl

/-- The fold of max from -∞ over a nonempty finite family of reals is a real. -/
theorem fold_max_coe {ι : Type*} (S : Finset ι) (hS : S.Nonempty) (f : ι → ℝ) :
    ∃ r : ℝ, S.fold max (⊥ : EReal) (fun t => (f t : EReal)) = (r : EReal) := by
  induction hS using Finset.Nonempty.cons_induction with
  | singleton a => exact ⟨f a, by rw [Finset.fold_singleton]; exact max_eq_left bot_le⟩
  | cons a S ha _ ih =>
    obtain ⟨r, hr⟩ := ih
    exact ⟨max (f a) r, by rw [Finset.fold_cons, hr]; exact (EReal.coe_strictMono.monotone.map_max).symm⟩

/-! ### The recurrence -/

/-- One block of the recurrence on the state (m, l, acc), for the block's scores s and values v. -/
def step {B : ℕ} (st : EReal × EReal × EReal) (s v : Fin B → EReal) : EReal × EReal × EReal :=
  (max st.1 ((Finset.univ : Finset (Fin B)).fold max ⊥ s),
   Ideal.exp (st.1 - max st.1 ((Finset.univ : Finset (Fin B)).fold max ⊥ s)) * st.2.1
     + ∑ t, Ideal.exp (s t - max st.1 ((Finset.univ : Finset (Fin B)).fold max ⊥ s)),
   Ideal.exp (st.1 - max st.1 ((Finset.univ : Finset (Fin B)).fold max ⊥ s)) * st.2.2
     + ∑ t, Ideal.exp (s t - max st.1 ((Finset.univ : Finset (Fin B)).fold max ⊥ s)) * v t)

/-- The state after k blocks, from (-∞, 0, 0); block i has scores s i and values v i. -/
def state {B : ℕ} (s v : ℕ → Fin B → EReal) : ℕ → EReal × EReal × EReal
  | 0 => (⊥, 0, 0)
  | k + 1 => step (state s v k) (s k) (v k)

@[simp] theorem state_zero {B : ℕ} (s v : ℕ → Fin B → EReal) : state s v 0 = (⊥, 0, 0) := rfl
theorem state_succ {B : ℕ} (s v : ℕ → Fin B → EReal) (k : ℕ) :
    state s v (k + 1) = step (state s v k) (s k) (v k) := rfl

/-- The state after k blocks reads only the first k blocks. -/
theorem state_congr {B : ℕ} {s v s' v' : ℕ → Fin B → EReal} {k : ℕ}
    (hs : ∀ i < k, s i = s' i) (hv : ∀ i < k, v i = v' i) : state s v k = state s' v' k := by
  induction k with
  | zero => rfl
  | succ k ih =>
    rw [state_succ, state_succ, ih (fun i hi => hs i (Nat.lt_succ_of_lt hi)) (fun i hi => hv i (Nat.lt_succ_of_lt hi)),
      hs k (Nat.lt_succ_self k), hv k (Nat.lt_succ_self k)]

/-- The running maximum after k blocks has exactly the upper bounds of the first k blocks' scores. -/
theorem state_max_le {B : ℕ} (s v : ℕ → Fin B → EReal) (k : ℕ) (x : EReal) :
    (state s v k).1 ≤ x ↔ ∀ i < k, ∀ t, s i t ≤ x := by
  induction k with
  | zero => simp
  | succ k ih =>
    rw [state_succ]
    show max (state s v k).1 _ ≤ x ↔ _
    rw [max_le_iff, ih, Finset.fold_max_le, Nat.forall_lt_succ_right]
    simp

/-- A block from the start: the state is real, shifted by the block's own maximum. -/
theorem step_bot {B : ℕ} (hB : 0 < B) (s v : Fin B → ℝ) :
    ∃ μ : ℝ, step (⊥, 0, 0) (fun t => (s t : EReal)) (fun t => (v t : EReal))
      = ((μ : EReal), ((∑ t, Real.exp (s t - μ) : ℝ) : EReal), ((∑ t, Real.exp (s t - μ) * v t : ℝ) : EReal)) := by
  haveI : Nonempty (Fin B) := ⟨⟨0, hB⟩⟩
  obtain ⟨r, hr⟩ := fold_max_coe (Finset.univ : Finset (Fin B)) Finset.univ_nonempty s
  refine ⟨r, ?_⟩
  have hm : max (⊥ : EReal) (r : EReal) = (r : EReal) := max_eq_right bot_le
  simp only [step, hr, hm, EReal.bot_sub, Ideal.exp_bot, zero_mul, zero_add, exp_coe_sub, coe_sum, EReal.coe_mul]

/-- A block from a real state shifted by μ: the state is real again, shifted by the new maximum. -/
theorem step_coe {B : ℕ} (hB : 0 < B) (s v : Fin B → ℝ) (μ L A : ℝ) :
    ∃ μ' : ℝ, step ((μ : EReal), (L : EReal), (A : EReal)) (fun t => (s t : EReal)) (fun t => (v t : EReal))
      = ((μ' : EReal), ((Real.exp (μ - μ') * L + ∑ t, Real.exp (s t - μ') : ℝ) : EReal),
          ((Real.exp (μ - μ') * A + ∑ t, Real.exp (s t - μ') * v t : ℝ) : EReal)) := by
  haveI : Nonempty (Fin B) := ⟨⟨0, hB⟩⟩
  obtain ⟨r, hr⟩ := fold_max_coe (Finset.univ : Finset (Fin B)) Finset.univ_nonempty s
  refine ⟨max μ r, ?_⟩
  have hm : max (μ : EReal) (r : EReal) = ((max μ r : ℝ) : EReal) := (EReal.coe_strictMono.monotone.map_max).symm
  simp only [step, hr, hm, exp_coe_sub, coe_sum, EReal.coe_mul, EReal.coe_add]

/-- The invariant: after k ≥ 1 blocks of finite scores and values the state is
    (μ, Σ exp (s - μ), Σ exp (s - μ) * v), the sums over the first k blocks, for a real μ. -/
theorem state_coe {B : ℕ} (hB : 0 < B) (s v : ℕ → Fin B → ℝ) (k : ℕ) (hk : 0 < k) :
    ∃ μ : ℝ, state (fun i t => (s i t : EReal)) (fun i t => (v i t : EReal)) k
      = ((μ : EReal), ((∑ i ∈ Finset.range k, ∑ t, Real.exp (s i t - μ) : ℝ) : EReal),
          ((∑ i ∈ Finset.range k, ∑ t, Real.exp (s i t - μ) * v i t : ℝ) : EReal)) := by
  induction k, hk using Nat.le_induction with
  | base =>
    obtain ⟨μ, hμ⟩ := step_bot hB (s 0) (v 0)
    refine ⟨μ, ?_⟩
    show step (⊥, 0, 0) _ _ = _
    rw [hμ, Finset.sum_range_one, Finset.sum_range_one]
  | succ k hk ih =>
    obtain ⟨μ, hμ⟩ := ih
    obtain ⟨μ', hμ'⟩ := step_coe hB (s k) (v k) μ (∑ i ∈ Finset.range k, ∑ t, Real.exp (s i t - μ))
      (∑ i ∈ Finset.range k, ∑ t, Real.exp (s i t - μ) * v i t)
    refine ⟨μ', ?_⟩
    have e : ∀ x : ℝ, Real.exp (μ - μ') * Real.exp (x - μ) = Real.exp (x - μ') := fun x => by
      rw [← Real.exp_add]; congr 1; ring
    rw [state_succ, hμ, hμ', Finset.sum_range_succ, Finset.sum_range_succ]
    simp only [Finset.mul_sum, ← mul_assoc, e]

/-! ### The two results as reals -/

/-- The quotient of two reals, the divisor not zero. -/
theorem div_coe_coe (A : ℝ) {L : ℝ} (hL : L ≠ 0) : Ideal.div (A : EReal) (L : EReal) = ((A / L : ℝ) : EReal) := by
  rw [Ideal.div, if_neg (EReal.coe_ne_zero.mpr hL), ← EReal.coe_inv, ← EReal.coe_mul, div_eq_mul_inv]

/-- The max-shifted softmax-weighted sum over a nonempty finite index set, the shift a real μ:
    Σ_x (exp (σ x - μ) / (0 + Σ_y exp (σ y - μ))) * ν x is the real (Σ exp (σ - μ) ν) / Σ exp (σ - μ). -/
theorem softmax_coe {ι : Type*} (S : Finset ι) (hS : S.Nonempty) (σ ν : ι → ℝ) (μ : ℝ) :
    ∑ x ∈ S, Ideal.div (Ideal.exp ((σ x : EReal) - (μ : EReal)))
        (0 + ∑ y ∈ S, Ideal.exp ((σ y : EReal) - (μ : EReal))) * (ν x : EReal)
      = (((∑ x ∈ S, Real.exp (σ x - μ) * ν x) / ∑ y ∈ S, Real.exp (σ y - μ) : ℝ) : EReal) := by
  have hL : (∑ y ∈ S, Real.exp (σ y - μ)) ≠ 0 := (Finset.sum_pos (fun y _ => Real.exp_pos _) hS).ne'
  simp only [exp_coe_sub, zero_add, ← coe_sum, div_coe_coe _ hL, ← EReal.coe_mul]
  refine congrArg _ ?_
  rw [Finset.sum_div]
  exact Finset.sum_congr rfl fun x _ => by ring

/-! ### The law -/

/-- The online-softmax law, blocks indexed by ℕ. For finite scores s i t and values v i t
    (block i < nb, entry t < B; nb, B positive), the recurrence's acc / l after nb blocks is the max-shifted
    softmax-weighted sum over the nb * B entries, written as a double sum over i < nb and t; M is any
    extended real with exactly the upper bounds of the scores (the row's maximum however it is folded). -/
theorem online_softmax {B : ℕ} (hB : 0 < B) {nb : ℕ} (hnb : 0 < nb) (s v : ℕ → Fin B → ℝ) (M : EReal)
    (hM : ∀ x : EReal, M ≤ x ↔ ∀ i < nb, ∀ t, (s i t : EReal) ≤ x) :
    Ideal.div (state (fun i t => (s i t : EReal)) (fun i t => (v i t : EReal)) nb).2.2
        (state (fun i t => (s i t : EReal)) (fun i t => (v i t : EReal)) nb).2.1
      = ∑ i ∈ Finset.range nb, ∑ t, Ideal.div (Ideal.exp ((s i t : EReal) - M))
          (0 + ∑ i' ∈ Finset.range nb, ∑ t', Ideal.exp ((s i' t' : EReal) - M)) * (v i t : EReal) := by
  obtain ⟨μ, hμ⟩ := state_coe hB s v nb hnb
  have hMμ : M = (μ : EReal) := by
    refine eq_of_forall_ge_iff fun x => ?_
    rw [hM, ← state_max_le (fun i t => (s i t : EReal)) (fun i t => (v i t : EReal)) nb x, hμ]
  haveI : Nonempty (Fin B) := ⟨⟨0, hB⟩⟩
  have hS : (Finset.range nb ×ˢ (Finset.univ : Finset (Fin B))).Nonempty :=
    Finset.Nonempty.product (Finset.nonempty_range_iff.mpr hnb.ne') Finset.univ_nonempty
  have h := softmax_coe (Finset.range nb ×ˢ (Finset.univ : Finset (Fin B))) hS
    (fun p => s p.1 p.2) (fun p => v p.1 p.2) μ
  rw [Finset.sum_product, Finset.sum_product, Finset.sum_product, Finset.sum_product] at h
  have hL : (∑ i ∈ Finset.range nb, ∑ t, Real.exp (s i t - μ)) ≠ 0 := by
    rw [← Finset.sum_product (f := fun p : ℕ × Fin B => Real.exp (s p.1 p.2 - μ))]
    exact (Finset.sum_pos (fun y _ => Real.exp_pos _) hS).ne'
  rw [hμ, hMμ, h]
  exact div_coe_coe _ hL

/-! ### Blocks indexed by Fin nb -/

/-- The state after k ≤ nb blocks, from (-∞, 0, 0), for blocks indexed by Fin nb. -/
def stateFin {nb B : ℕ} (s v : Fin nb → Fin B → EReal) : (k : ℕ) → k ≤ nb → EReal × EReal × EReal
  | 0, _ => (⊥, 0, 0)
  | k + 1, h => step (stateFin s v k (Nat.le_of_succ_le h)) (s ⟨k, h⟩) (v ⟨k, h⟩)

@[simp] theorem stateFin_zero {nb B : ℕ} (s v : Fin nb → Fin B → EReal) (h : 0 ≤ nb) :
    stateFin s v 0 h = (⊥, 0, 0) := rfl
theorem stateFin_succ {nb B : ℕ} (s v : Fin nb → Fin B → EReal) (k : ℕ) (h : k + 1 ≤ nb) :
    stateFin s v (k + 1) h = step (stateFin s v k (Nat.le_of_succ_le h)) (s ⟨k, h⟩) (v ⟨k, h⟩) := rfl

/-- It is the state of any ℕ-indexed families that agree with s and v below nb. -/
theorem stateFin_eq_state {nb B : ℕ} (s v : Fin nb → Fin B → EReal) (s' v' : ℕ → Fin B → EReal)
    (hs : ∀ i (h : i < nb), s' i = s ⟨i, h⟩) (hv : ∀ i (h : i < nb), v' i = v ⟨i, h⟩) (k : ℕ) (h : k ≤ nb) :
    stateFin s v k h = state s' v' k := by
  induction k with
  | zero => rfl
  | succ k ih => rw [stateFin_succ, state_succ, ih (Nat.le_of_succ_le h), hs k h, hv k h]

/-- A family over Fin nb read at a natural number: the index reduced mod nb, so at i < nb it is f i. -/
def ofFin {nb : ℕ} {α : Type*} (hnb : 0 < nb) (f : Fin nb → α) (i : ℕ) : α := f ⟨i % nb, Nat.mod_lt i hnb⟩

theorem ofFin_of_lt {nb : ℕ} {α : Type*} (hnb : 0 < nb) (f : Fin nb → α) (i : ℕ) (h : i < nb) :
    ofFin hnb f i = f ⟨i, h⟩ :=
  congrArg f (Fin.ext (Nat.mod_eq_of_lt h))

theorem ofFin_coe {nb : ℕ} {α : Type*} (hnb : 0 < nb) (f : Fin nb → α) (i : Fin nb) : ofFin hnb f i = f i :=
  ofFin_of_lt hnb f i i.isLt

/-- The online-softmax law, blocks indexed by Fin nb: for finite scores s i t and values v i t, the
    recurrence's acc / l after all nb blocks is the max-shifted softmax-weighted sum, a double sum over
    the blocks i and the entries t; M is any extended real with exactly the scores' upper bounds. -/
theorem online_softmax_fin {nb B : ℕ} (hnb : 0 < nb) (hB : 0 < B) (s v : Fin nb → Fin B → ℝ) (M : EReal)
    (hM : ∀ x : EReal, M ≤ x ↔ ∀ i t, (s i t : EReal) ≤ x) :
    Ideal.div (stateFin (fun i t => (s i t : EReal)) (fun i t => (v i t : EReal)) nb le_rfl).2.2
        (stateFin (fun i t => (s i t : EReal)) (fun i t => (v i t : EReal)) nb le_rfl).2.1
      = ∑ i, ∑ t, Ideal.div (Ideal.exp ((s i t : EReal) - M))
          (0 + ∑ i', ∑ t', Ideal.exp ((s i' t' : EReal) - M)) * (v i t : EReal) := by
  have hst := stateFin_eq_state (fun i t => (s i t : EReal)) (fun i t => (v i t : EReal))
    (fun i t => (ofFin hnb s i t : EReal)) (fun i t => (ofFin hnb v i t : EReal))
    (fun i h => by rw [ofFin_of_lt hnb s i h]) (fun i h => by rw [ofFin_of_lt hnb v i h]) nb le_rfl
  have hM' : ∀ x : EReal, M ≤ x ↔ ∀ i < nb, ∀ t, (ofFin hnb s i t : EReal) ≤ x := fun x => by
    rw [hM]
    exact ⟨fun H i hi t => by rw [ofFin_of_lt hnb s i hi]; exact H ⟨i, hi⟩ t,
      fun H i t => by have := H i i.isLt t; rwa [ofFin_coe] at this⟩
  rw [hst, online_softmax hB hnb (ofFin hnb s) (ofFin hnb v) M hM', Finset.sum_range, Finset.sum_range]
  simp only [ofFin_coe]

/-- The fold of max from -∞ over all blocks and entries, under one more max with -∞ (as a host
    softmax takes it), has exactly the scores' upper bounds. -/
theorem max_bot_fold_le {nb B : ℕ} (s : Fin nb → Fin B → EReal) (x : EReal) :
    max ⊥ ((Finset.univ : Finset (Fin nb × Fin B)).fold max ⊥ fun p => s p.1 p.2) ≤ x ↔ ∀ i t, s i t ≤ x := by
  rw [max_le_iff, Finset.fold_max_le]
  simp

/-- The law with the reference's maximum written as that fold. -/
theorem online_softmax_fin_fold {nb B : ℕ} (hnb : 0 < nb) (hB : 0 < B) (s v : Fin nb → Fin B → ℝ) :
    Ideal.div (stateFin (fun i t => (s i t : EReal)) (fun i t => (v i t : EReal)) nb le_rfl).2.2
        (stateFin (fun i t => (s i t : EReal)) (fun i t => (v i t : EReal)) nb le_rfl).2.1
      = ∑ i, ∑ t, Ideal.div (Ideal.exp ((s i t : EReal)
            - max ⊥ ((Finset.univ : Finset (Fin nb × Fin B)).fold max ⊥ fun p => (s p.1 p.2 : EReal))))
          (0 + ∑ i', ∑ t', Ideal.exp ((s i' t' : EReal)
            - max ⊥ ((Finset.univ : Finset (Fin nb × Fin B)).fold max ⊥ fun p => (s p.1 p.2 : EReal))))
          * (v i t : EReal) :=
  online_softmax_fin hnb hB s v _ (max_bot_fold_le fun i t => (s i t : EReal))

/-- The law for a row indexed by any finite type ι that splits into nb blocks of B entries by an
    equivalence e (the entry j is entry (e j).2 of block (e j).1): the recurrence run on the blocks of the
    finite scores σ and values ν gives the max-shifted softmax-weighted sum over ι. -/
theorem online_softmax_equiv {nb B : ℕ} (hnb : 0 < nb) (hB : 0 < B) {ι : Type*} [Fintype ι]
    (e : ι ≃ Fin nb × Fin B) (σ ν : ι → ℝ) (M : EReal) (hM : ∀ x : EReal, M ≤ x ↔ ∀ j, (σ j : EReal) ≤ x) :
    Ideal.div (stateFin (fun i t => (σ (e.symm (i, t)) : EReal)) (fun i t => (ν (e.symm (i, t)) : EReal)) nb le_rfl).2.2
        (stateFin (fun i t => (σ (e.symm (i, t)) : EReal)) (fun i t => (ν (e.symm (i, t)) : EReal)) nb le_rfl).2.1
      = ∑ j, Ideal.div (Ideal.exp ((σ j : EReal) - M)) (0 + ∑ j', Ideal.exp ((σ j' : EReal) - M)) * (ν j : EReal) := by
  have hM' : ∀ x : EReal, M ≤ x ↔ ∀ i t, (σ (e.symm (i, t)) : EReal) ≤ x := fun x => by
    rw [hM]
    exact ⟨fun H i t => H _, fun H j => by have := H (e j).1 (e j).2; rwa [Prod.mk.eta, e.symm_apply_apply] at this⟩
  rw [online_softmax_fin hnb hB (fun i t => σ (e.symm (i, t))) (fun i t => ν (e.symm (i, t))) M hM']
  have hsum : ∀ g : ι → EReal, ∑ i, ∑ t, g (e.symm (i, t)) = ∑ j, g j := fun g => by
    rw [← Fintype.sum_prod_type']
    exact Equiv.sum_comp e.symm g
  rw [hsum fun j => Ideal.exp ((σ j : EReal) - M)]
  exact hsum fun j => Ideal.div (Ideal.exp ((σ j : EReal) - M)) (0 + ∑ j', Ideal.exp ((σ j' : EReal) - M)) * (ν j : EReal)

/-! ### The recurrence walked point by point over several rows of blocks -/

/-- A walk visits the blocks in runs of nb points, point n being block n % nb of run n / nb; the triple
    after point n is one step from (-∞, 0, 0) at the head of a run and one step from the triple after
    point n - 1 elsewhere. Then the triple after point n is the state after the first n % nb + 1 blocks of
    its run, the run's blocks being those of the points nb * (n / nb) + i. -/
theorem sweep_state {B : ℕ} (nb N : ℕ) (hnb : 0 < nb) (T : ℕ → EReal × EReal × EReal) (S Vv : ℕ → Fin B → EReal)
    (h0 : ∀ n, n < N → n % nb = 0 → T n = step (⊥, 0, 0) (S n) (Vv n))
    (h1 : ∀ n, n < N → n % nb ≠ 0 → T n = step (T (n - 1)) (S n) (Vv n)) :
    ∀ n, n < N → T n = state (fun i => S (nb * (n / nb) + i)) (fun i => Vv (nb * (n / nb) + i)) (n % nb + 1) := by
  intro n
  induction n using Nat.strong_induction_on with
  | _ n ih =>
    intro hn
    have hqr : nb * (n / nb) + n % nb = n := Nat.div_add_mod n nb
    by_cases hz : n % nb = 0
    · rw [h0 n hn hz, hz, state_succ, state_zero]
      have e : nb * (n / nb) + 0 = n := by rw [hz] at hqr; exact hqr
      simp only [e]
    · have hr : n % nb < nb := Nat.mod_lt n hnb
      have e : n - 1 = nb * (n / nb) + (n % nb - 1) := by omega
      have hdiv : (n - 1) / nb = n / nb := by
        rw [e, Nat.mul_add_div hnb, Nat.div_eq_of_lt (show n % nb - 1 < nb by omega), add_zero]
      have hmod : (n - 1) % nb + 1 = n % nb := by
        rw [e, Nat.mul_add_mod, Nat.mod_eq_of_lt (show n % nb - 1 < nb by omega)]; omega
      rw [h1 n hn hz, ih (n - 1) (by omega) (by omega), hdiv, hmod, state_succ]
      simp only [hqr]

end OnlineSoftmax
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.FlashPayloads.lean ====
/-
  The attention kernel's values at an entry, over the extended reals.

  At one grid point the kernel takes a block of 1024 query rows and a block of 1024 key rows (each with 1024
  features), the matching block of value rows, and the state the previous key block left: per query row the running
  maximum m, the running denominator l and, per output column, the running numerator acc. It forms the scores
  s (r, t) = (Σ_d q (r, d) · k (t, d)) · c, c the scaling constant, and leaves
      m'   = max m (max_t s (r, t))
      l'   = exp (m - m') · l + Σ_t exp (s (r, t) - m')
      acc' = exp (m - m') · acc + Σ_t exp (s (r, t) - m') · v (t, j),
  which is one step of the online-softmax recurrence on the row's state; at the last key block it stores acc' / l',
  and at the first it starts from m = -∞, l = 0, acc = 0. Each array operation is read at an entry: a pointwise
  operation acts on the entries, a matrix product into zero is the sum over the contracted axis, a reduction of a row
  is the fold of max (from -∞) or the sum over the row, a column broadcast repeats the row's entry, and a format
  change or a cast to the same shape is the identity.
-/
import proofs.«161902_j11218454577369_2_alg».proof.Proof.Gen.KernelIdeal.Skeleton
import proofs.«161902_j11218454577369_2_alg».proof.Proof.LibOnlineSoftmax
import proofs.«161902_j11218454577369_2_alg».proof.Proof.LibRows
import proofs.«161902_j11218454577369_2_alg».proof.Proof.LibDotT
import proofs.«161902_j11218454577369_2_alg».proof.Proof.LibPlainDot
import proofs.«161902_j11218454577369_2_alg».proof.Proof.LibLayout

set_option maxRecDepth 16384

open scoped BigOperators

noncomputable section

namespace Cert.KernelIdeal.FlashValue

open Cert.KernelIdeal Cert.KernelIdeal.Gen Idealize.ShloMosaic Idealize.ShloMosaic.ValueIdx

/-- The block's score of query row r against key row t: the contraction over the 1024 features, scaled. -/
def blockScore (x0 x1 : Vec Ideal S1024x1024 .f32) (r t : Fin 1024) : EReal :=
  (∑ d : Fin 1024, (x0 (ix2 r d) : EReal) * (x1 (ix2 t d) : EReal)) * Ideal.ofBits .f32 0x3D000000#32

theorem dotT_rank : (dot_S1024x1024_S1024x1024_S1024x1024_1_1_0_0_n_n).contr.rank = 1 := rfl
theorem dotT_size : (dot_S1024x1024_S1024x1024_S1024x1024_1_1_0_0_n_n).contr.size ⟨0, by rw [dotT_rank]; exact Nat.one_pos⟩ = 1024 := rfl

/-- The product of the query block with the transposed key block, from zero, at (r, t). -/
theorem scoreDot_apply (x0 x1 : FVec Ideal S1024x1024 .f32) (r t : Fin 1024) :
    matmul dot_S1024x1024_S1024x1024_S1024x1024_1_1_0_0_n_n (some ContractPrecision.fp32) x0 x1
        (constant (F := Ideal) S1024x1024 .f32 0x00000000#32) (ix2 r t)
      = ∑ d : Fin 1024, x0 (ix2 r d) * x1 (ix2 t d) :=
  Cert.LibDotT.matmulT_zero_apply dot_S1024x1024_S1024x1024_S1024x1024_1_1_0_0_n_n rfl rfl dotT_rank dotT_size
    (fun _ _ => rfl) (fun _ _ => rfl) (some ContractPrecision.fp32) x0 x1 r t

/-- The scaled scores of the block at (r, t). -/
theorem pay7_apply (x0 x1 : Vec Ideal S1024x1024 .f32) (r t : Fin 1024) :
    k1_pay7 (F := Ideal) x0 x1 (ix2 r t) = blockScore x0 x1 r t := by
  unfold k1_pay7 blockScore
  rw [shapeCast_self, shapeCast_self, mulf_apply, broadcast_apply, scoreDot_apply]
  rfl

/-- The word of minus infinity is the bottom element. -/
theorem ofBits_neg_inf : Ideal.ofBits .f32 0xFF800000#32 = (⊥ : EReal) := by simp [Ideal.ofBits, Ideal.ieee]

/-- The running maximum after the block, at row r. -/
def newMax (x0 x1 : Vec Ideal S1024x1024 .f32) (xs0 : Vec Ideal S1024x1 .f32) (r : Fin 1024) : EReal :=
  max (xs0 (ix2 r (0 : Fin 1)) : EReal) ((Finset.univ : Finset (Fin 1024)).fold max ⊥ (fun t => blockScore x0 x1 r t))

theorem pay8_apply (x0 x1 : Vec Ideal S1024x1024 .f32) (xs0 : Vec Ideal S1024x1 .f32) (r : Fin 1024) :
    k1_pay8 (F := Ideal) x0 x1 xs0 (ix2 r (0 : Fin 1)) = newMax x0 x1 xs0 r := by
  unfold k1_pay8 newMax
  rw [maximumf_apply, shapeCast_a_a1_apply]
  refine congrArg (max _) ?_
  refine (rowMax_apply (k1_pay7 (F := Ideal) x0 x1) 0xFF800000#32 reduces_S1024x1024_S1024 (.inl rfl) rfl r).trans ?_
  rw [ofBits_neg_inf]
  exact congrArg (fun f => Finset.fold max ⊥ f Finset.univ) (funext fun t => pay7_apply x0 x1 r t)

/-- The maximum component. -/
theorem max_apply (x0 x1 : Vec Ideal S1024x1024 .f32) (xs0 : Vec Ideal S1024x1 .f32) (r : Fin 1024) :
    k1_pay2 (k1_pay8 (F := Ideal) x0 x1 xs0) (ix2 r (0 : Fin 1)) = newMax x0 x1 xs0 r := by
  unfold k1_pay2
  rw [shapeCast_self, pay8_apply]

/-- The rescaling factor of the old state at row r. -/
theorem pay9_apply (x0 x1 : Vec Ideal S1024x1024 .f32) (xs0 xs0' : Vec Ideal S1024x1 .f32) (r : Fin 1024) :
    k1_pay9 (F := Ideal) x0 x1 xs0 xs0' (ix2 r (0 : Fin 1)) = Ideal.exp ((xs0' (ix2 r (0 : Fin 1)) : EReal) - newMax x0 x1 xs0 r) := by
  unfold k1_pay9
  show Ideal.exp (subf xs0' (k1_pay8 x0 x1 xs0) (ix2 r (0 : Fin 1))) = _
  rw [subf_apply, pay8_apply]

/-- The block's weights at (r, t). -/
theorem pay10_apply (x0 x1 : Vec Ideal S1024x1024 .f32) (xs0 : Vec Ideal S1024x1 .f32) (r t : Fin 1024) :
    k1_pay10 (F := Ideal) x0 x1 xs0 (ix2 r t) = Ideal.exp (blockScore x0 x1 r t - newMax x0 x1 xs0 r) := by
  unfold k1_pay10
  show Ideal.exp (subf (k1_pay7 x0 x1) (broadcastTo S1024x1024 (k1_pay8 x0 x1 xs0) broadcasts_S1024x1_S1024x1024) (ix2 r t)) = _
  rw [subf_apply, broadcastTo_a1_ab_apply, pay7_apply, pay8_apply]

/-- The denominator after the block, at row r. -/
theorem den_apply (x0 x1 : Vec Ideal S1024x1024 .f32) (xs0 xs1 : Vec Ideal S1024x1 .f32) (r : Fin 1024) :
    k1_pay11 (F := Ideal) x0 x1 xs0 xs0 xs1 (ix2 r (0 : Fin 1))
      = Ideal.exp ((xs0 (ix2 r (0 : Fin 1)) : EReal) - newMax x0 x1 xs0 r) * (xs1 (ix2 r (0 : Fin 1)) : EReal)
        + ∑ t : Fin 1024, Ideal.exp (blockScore x0 x1 r t - newMax x0 x1 xs0 r) := by
  unfold k1_pay11
  rw [shapeCast_self, addf_apply, mulf_apply, pay9_apply, shapeCast_a_a1_apply]
  refine congrArg (HAdd.hAdd (α := EReal) (β := EReal) (γ := EReal) _) ?_
  refine (rowSum_apply (k1_pay10 (F := Ideal) x0 x1 xs0) 0x00000000#32 reduces_S1024x1024_S1024 (.inl rfl) rfl r).trans ?_
  exact Finset.sum_congr rfl fun t _ => pay10_apply x0 x1 xs0 r t

/-- The product of the weights with the value block, from zero, at (r, j). -/
theorem valueDot_apply (p v : FVec Ideal S1024x1024 .bf16) (r j : Fin 1024) :
    matmul dot_S1024x1024_S1024x1024_S1024x1024_1_0_0_1_n_n none p v
        (constant (F := Ideal) S1024x1024 .f32 0x00000000#32) (ix2 r j)
      = ∑ t : Fin 1024, p (ix2 r t) * v (ix2 t j) :=
  Cert.LibPlainDot.matmul_plain_apply dot_S1024x1024_S1024x1024_S1024x1024_1_0_0_1_n_n rfl rfl rfl rfl rfl rfl none p v r j

/-- The old numerator rescaled, at (r, j). -/
theorem pay12_apply (x0 x1 : Vec Ideal S1024x1024 .f32) (xs0 xs0' : Vec Ideal S1024x1 .f32) (xs2 : Vec Ideal S1024x1024 .f32)
    (r j : Fin 1024) :
    k1_pay12 (F := Ideal) x0 x1 xs0 xs0' xs2 (ix2 r j)
      = Ideal.exp ((xs0' (ix2 r (0 : Fin 1)) : EReal) - newMax x0 x1 xs0 r) * (xs2 (ix2 r j) : EReal) := by
  unfold k1_pay12
  rw [mulf_apply, broadcastTo_a1_ab_apply, pay9_apply]

/-- The weights in the product's input format: the same extended reals. -/
theorem pay13_apply (x0 x1 : Vec Ideal S1024x1024 .f32) (xs0 : Vec Ideal S1024x1 .f32) (r t : Fin 1024) :
    k1_pay13 (F := Ideal) x0 x1 xs0 (ix2 r t) = Ideal.exp (blockScore x0 x1 r t - newMax x0 x1 xs0 r) := by
  unfold k1_pay13
  rw [truncf_apply, pay10_apply]

/-- The value block as the product reads it. -/
theorem pay14_apply (x2 : Vec Ideal S1024x1024 .bf16) (t j : Fin 1024) :
    k1_pay14 (F := Ideal) x2 (ix2 t j) = x2 (ix2 t j) := by
  unfold k1_pay14
  rw [shapeCast_self]

/-- The numerator after the block, at (r, j). -/
theorem num_apply (x0 x1 : Vec Ideal S1024x1024 .f32) (x2 : Vec Ideal S1024x1024 .bf16) (xs0 : Vec Ideal S1024x1 .f32)
    (xs2 : Vec Ideal S1024x1024 .f32) (r j : Fin 1024) :
    k1_pay1 (k1_pay12 (F := Ideal) x0 x1 xs0 xs0 xs2) (k1_pay13 x0 x1 xs0) (k1_pay14 x2) (ix2 r j)
      = Ideal.exp ((xs0 (ix2 r (0 : Fin 1)) : EReal) - newMax x0 x1 xs0 r) * (xs2 (ix2 r j) : EReal)
        + ∑ t : Fin 1024, Ideal.exp (blockScore x0 x1 r t - newMax x0 x1 xs0 r) * (x2 (ix2 t j) : EReal) := by
  unfold k1_pay1
  rw [shapeCast_self, addf_apply, valueDot_apply, pay12_apply]
  refine congrArg (HAdd.hAdd (α := EReal) (β := EReal) (γ := EReal) _) ?_
  exact Finset.sum_congr rfl fun t _ => by rw [pay13_apply, pay14_apply]

/-- One grid point is one step of the online-softmax recurrence on the state of row r (and output column j). -/
theorem step_apply (x0 x1 : Vec Ideal S1024x1024 .f32) (x2 : Vec Ideal S1024x1024 .bf16) (xs0 xs1 : Vec Ideal S1024x1 .f32)
    (xs2 : Vec Ideal S1024x1024 .f32) (r j : Fin 1024) :
    ((k1_pay2 (k1_pay8 (F := Ideal) x0 x1 xs0) (ix2 r (0 : Fin 1)) : EReal),
      (k1_pay11 (F := Ideal) x0 x1 xs0 xs0 xs1 (ix2 r (0 : Fin 1)) : EReal),
      (k1_pay1 (k1_pay12 (F := Ideal) x0 x1 xs0 xs0 xs2) (k1_pay13 x0 x1 xs0) (k1_pay14 x2) (ix2 r j) : EReal))
      = OnlineSoftmax.step ((xs0 (ix2 r (0 : Fin 1)) : EReal), (xs1 (ix2 r (0 : Fin 1)) : EReal), (xs2 (ix2 r j) : EReal))
          (fun t : Fin 1024 => blockScore x0 x1 r t) (fun t : Fin 1024 => (x2 (ix2 t j) : EReal)) := by
  rw [max_apply, den_apply, num_apply]
  rfl

/-- The output block at the last key block: the numerator over the denominator. -/
theorem out_apply (acc : Vec Ideal S1024x1024 .f32) (l : Vec Ideal S1024x1 .f32) (r j : Fin 1024) :
    k1_pay3 (F := Ideal) acc l (ix2 r j) = Ideal.div (acc (ix2 r j)) (l (ix2 r (0 : Fin 1))) := by
  unfold k1_pay3
  rw [divf_apply, broadcastTo_a1_ab_apply]

/-- The state the first key block starts from: -∞, 0, 0. -/
theorem reset_apply (r j : Fin 1024) :
    k1_pay4 (F := Ideal) (ix2 r (0 : Fin 1)) = (⊥ : EReal) ∧ k1_pay5 (F := Ideal) (ix2 r (0 : Fin 1)) = (0 : EReal)
      ∧ k1_pay6 (F := Ideal) (ix2 r j) = (0 : EReal) := by
  refine ⟨?_, ?_, ?_⟩
  · unfold k1_pay4
    rw [shapeCast_self, broadcast_apply]
    exact ofBits_neg_inf
  · unfold k1_pay5
    rw [shapeCast_self, broadcast_apply]
    exact Ideal.ofBits_zero_f32
  · unfold k1_pay6
    rw [shapeCast_self, broadcast_apply]
    exact Ideal.ofBits_zero_f32

end Cert.KernelIdeal.FlashValue
end
-- ==== Proof.AttnState.lean ====
/-
  The attention kernel's scratch arrays as the online-softmax recurrence. Fix a row r of a query block and an output
  column j. After grid point n (key block n % 8 of query block n / 8) the three scratch arrays hold, at (r, 0), (r, 0)
  and (r, j), the running maximum, denominator and numerator: one step of the recurrence from the reset values at the
  first key block, and one step from what the point before left otherwise. Hence after point n they are the
  recurrence's state after n % 8 + 1 blocks, over the scores of row r against the key blocks of that query block and
  over column j of the value blocks.
-/
import proofs.«161902_j11218454577369_2_alg».proof.Proof.FlashData
import proofs.«161902_j11218454577369_2_alg».proof.Proof.FlashPieces
import proofs.«161902_j11218454577369_2_alg».proof.Proof.FlashPayloads

noncomputable section

namespace Cert.KernelIdeal.AttnValue

open Cert.KernelIdeal Cert.KernelIdeal.Gen Cert.KernelIdeal.Hand Cert.KernelIdeal.FlashValue
open Idealize.ShloMosaic Idealize.ShloMosaic.TcCoe Idealize.ShloMosaic.ValueIdx Idealize.SL.Sem

variable (V : (c : Dev nD) → (b : Ref sig .tc) → Buf (Elt Ideal) ((c : Thread nD τ).loc b))

/-- Grid point number n, taken modulo the 64 points so that it is defined for every natural number. -/
def pt (n : ℕ) : Fin cfg1.N := ⟨n % 64, lt_of_lt_of_eq (Nat.mod_lt n (by decide)) N_1.symm⟩
theorem pt_val {n : ℕ} (h : n < 64) : (pt n).val = n := Nat.mod_eq_of_lt h
theorem pt_eq (t : Fin cfg1.N) : pt t.val = t := Fin.ext (pt_val (lt_of_lt_of_eq t.isLt N_1))

theorem outsAt1_congr (c : Dev nD) {n n' : ℕ} (e : n = n') (h : n < cfg1.N) (h' : n' < cfg1.N) :
    outsAt1 V c n h = outsAt1 V c n' h' := by subst e; rfl

/-- The running maximum, denominator and numerator after point n, at row r (and column j). -/
def trip (c : Dev nD) (r j : Fin 1024) (n : ℕ) : EReal × EReal × EReal :=
  (((outsAt1 V c (pt n).val (pt n).isLt).2.1 (ix2 r (0 : Fin 1)) : EReal),
   ((outsAt1 V c (pt n).val (pt n).isLt).2.2.1 (ix2 r (0 : Fin 1)) : EReal),
   ((outsAt1 V c (pt n).val (pt n).isLt).2.2.2 (ix2 r j) : EReal))

/-- The scores of row r of point n's query block against the rows of point n's key block. -/
def ptScore (c : Dev nD) (r : Fin 1024) (n : ℕ) : Fin 1024 → EReal :=
  fun s => blockScore (iblk1 V c 0 (pt n)) (iblk1 V c 1 (pt n)) r s
/-- Column j of point n's value block. -/
def ptVal (c : Dev nD) (j : Fin 1024) (n : ℕ) : Fin 1024 → EReal :=
  fun s => ((iblk1 V c 2 (pt n)) (ix2 s j) : EReal)

set_option maxHeartbeats 4000000 in
/-- At the first key block the kernel resets the scratch arrays and takes one step from the reset values. -/
theorem trip_reset (c : Dev nD) (r j : Fin 1024) (n : ℕ) (hn : n < 64) (h0 : n % 8 = 0) :
    trip V c r j n = OnlineSoftmax.step (⊥, 0, 0) (ptScore V c r n) (ptVal V c j n) := by
  have hv : (pt n).val = n := pt_val hn
  unfold trip ptScore ptVal
  rw [outsAt1_A V c (pt n) (by rw [hv]; exact h0) (by rw [hv]; omega)]
  unfold outs1_A; dsimp only
  rw [pieces1_A_0, pieces1_A_1, pieces1_A_2]
  refine (step_apply _ _ _ _ _ _ r j).trans ?_
  obtain ⟨e0, e1, e2⟩ := reset_apply r j
  rw [e0, e1, e2]

set_option maxHeartbeats 4000000 in
/-- At every other key block it takes one step from what the point before left. -/
theorem trip_step (c : Dev nD) (r j : Fin 1024) (n : ℕ) (hn : n < 64) (h0 : n % 8 ≠ 0) :
    trip V c r j n = OnlineSoftmax.step (trip V c r j (n - 1)) (ptScore V c r n) (ptVal V c j n) := by
  have hv : (pt n).val = n := pt_val hn
  have hv' : (pt (n - 1)).val = n - 1 := pt_val (by omega)
  have hprev : outsAt1 V c ((pt n).val - 1) (Nat.lt_of_le_of_lt (Nat.sub_le _ _) (pt n).isLt)
      = outsAt1 V c (pt (n - 1)).val (pt (n - 1)).isLt := outsAt1_congr V c (by rw [hv, hv']) _ _
  unfold trip ptScore ptVal
  by_cases h1 : n % 8 = 7
  · rw [outsAt1_C V c (pt n) (by rw [hv]; exact h0) (by rw [hv]; exact h1)]
    unfold outs1_C; dsimp only
    rw [pieces1_C_0, pieces1_C_1, pieces1_C_2, hprev]
    exact step_apply _ _ _ _ _ _ r j
  · rw [outsAt1_B V c (pt n) (by rw [hv]; exact h0) (by rw [hv]; exact h1)]
    unfold outs1_B; dsimp only
    rw [pieces1_B_0, pieces1_B_1, pieces1_B_2, hprev]
    exact step_apply _ _ _ _ _ _ r j

attribute [local irreducible] trip ptScore ptVal in
/-- After point n the scratch arrays hold the recurrence's state after n % 8 + 1 blocks of that query block's run. -/
theorem trip_state (c : Dev nD) (r j : Fin 1024) (n : ℕ) (hn : n < 64) :
    trip V c r j n = OnlineSoftmax.state (fun i => ptScore V c r (8 * (n / 8) + i)) (fun i => ptVal V c j (8 * (n / 8) + i)) (n % 8 + 1) := by
  have h := OnlineSoftmax.sweep_state (B := 1024) 8 64 (by decide) (trip V c r j) (ptScore V c r) (ptVal V c j)
    (trip_reset V c r j) (trip_step V c r j) n hn
  exact h

set_option maxHeartbeats 4000000 in
/-- At the last key block the kernel stores numerator over denominator, entry by entry. -/
theorem out_div (c : Dev nD) (t : Fin cfg1.N) (h7 : t.val % 8 = 7) (r j : Fin 1024) :
    ((outsAt1 V c t.val t.isLt).1 (ix2 r j) : EReal) = Ideal.div (trip V c r j t.val).2.2 (trip V c r j t.val).2.1 := by
  have e : outsAt1 V c (pt t.val).val (pt t.val).isLt = outsAt1 V c t.val t.isLt :=
    outsAt1_congr V c (by rw [pt_eq t]) _ _
  unfold trip; rw [e]
  rw [outsAt1_C V c t (by omega) h7]
  unfold outs1_C; dsimp only
  rw [pieces1_C_3, pieces1_C_1, pieces1_C_2]
  exact out_apply _ _ r j

end Cert.KernelIdeal.AttnValue

end
-- ==== Proof.AttnBlocks.lean ====
/-
  The attention region's blocks as rows of its arrays, and its result array from its blocks.

  The region's grid is 8 × 8 in row-major order: point t works on query block t / 8 and key block t % 8, every block
  1024 rows. So the query block at point t is rows 1024·(t / 8) … of the query array, the key and value blocks are
  rows 1024·(t % 8) … of the key and value arrays, and the result's block is rows 1024·(t / 8) … of the result array,
  written back at the last key block of each query block (t % 8 = 7). Row p of the result lies in the block written
  back at point 8·(p / 1024) + 7, the eight such blocks tile the array, and so the array ends holding any function
  whose block each of those points leaves.
-/
import proofs.«161902_j11218454577369_2_alg».proof.Proof.FlashData
import Idealize.ShloMosaic.Lib.Pipeline.Value
import Idealize.ShloMosaic.Lib.ValueIdx

noncomputable section

namespace Cert.KernelIdeal.AttnBlocks

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The grid's points and the windows' block indices -/

theorem tlt (t : Fin cfg1.N) : t.val < 64 := Nat.lt_of_lt_of_eq t.isLt N_1

/-- A row of the query block of point t is a row of the array. -/
theorem row_lt (t : Fin cfg1.N) (r : Fin 1024) : 1024 * (t.val / 8) + r.val < 8192 := by
  have := tlt t; omega

/-- A row of the key block of point t is a row of the array. -/
theorem key_lt (t : Fin cfg1.N) (r : Fin 1024) : 1024 * (t.val % 8) + r.val < 8192 := by
  omega

/-- The queries' and the result's windows are at block row t / 8, the keys' and the values' at block row t % 8, all
    at block column 0. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-! ## The input blocks as rows of the arrays -/

variable (V : (c : Dev nD) → (b : Ref sig .tc) → Buf (Elt Ideal) ((c : Thread nD τ).loc b))

/-- The query block at point t is rows 1024·(t / 8) … of the query array. -/
theorem qblk_apply (c : Dev nD) (t : Fin cfg1.N) (r d : Fin 1024) :
    (iblk1 V c 0 t : S1024x1024.Idx → EReal) (ix2 r d)
      = (V c main_v0_0 : S8192x1024.Idx → EReal) (ix2 (⟨1024 * (t.val / 8) + r.val, row_lt t r⟩ : Fin 8192) d) := by
  obtain ⟨e0, e1, -⟩ := idx_facts t
  unfold iblk1
  rw [View.read_apply]
  show (V c main_v0_0 : S8192x1024.Idx → EReal) _ = _
  refine congrArg (V c main_v0_0 : S8192x1024.Idx → EReal) (funext fun a => Fin.ext ?_)
  match a with
  | ⟨0, _⟩ => show win1_0.index t (0 : Fin 2) * 1024 + 1 * r.val = 1024 * (t.val / 8) + r.val; rw [e0]; omega
  | ⟨1, _⟩ => show win1_0.index t (1 : Fin 2) * 1024 + 1 * d.val = d.val; rw [e1]; omega

/-- The key block at point t is rows 1024·(t % 8) … of the key array. -/
theorem kblk_apply (c : Dev nD) (t : Fin cfg1.N) (s d : Fin 1024) :
    (iblk1 V c 1 t : S1024x1024.Idx → EReal) (ix2 s d)
      = (V c main_v0_1 : S8192x1024.Idx → EReal) (ix2 (⟨1024 * (t.val % 8) + s.val, key_lt t s⟩ : Fin 8192) d) := by
  obtain ⟨-, -, e0, e1, -⟩ := idx_facts t
  unfold iblk1
  rw [View.read_apply]
  show (V c main_v0_1 : S8192x1024.Idx → EReal) _ = _
  refine congrArg (V c main_v0_1 : S8192x1024.Idx → EReal) (funext fun a => Fin.ext ?_)
  match a with
  | ⟨0, _⟩ => show win1_1.index t (0 : Fin 2) * 1024 + 1 * s.val = 1024 * (t.val % 8) + s.val; rw [e0]; omega
  | ⟨1, _⟩ => show win1_1.index t (1 : Fin 2) * 1024 + 1 * d.val = d.val; rw [e1]; omega

/-- The value block at point t is rows 1024·(t % 8) … of the value array. -/
theorem vblk_apply (c : Dev nD) (t : Fin cfg1.N) (s j : Fin 1024) :
    (iblk1 V c 2 t : S1024x1024.Idx → EReal) (ix2 s j)
      = (V c main_v0_2 : S8192x1024.Idx → EReal) (ix2 (⟨1024 * (t.val % 8) + s.val, key_lt t s⟩ : Fin 8192) j) := by
  obtain ⟨-, -, -, -, e0, e1, -⟩ := idx_facts t
  unfold iblk1
  rw [View.read_apply]
  show (V c main_v0_2 : S8192x1024.Idx → EReal) _ = _
  refine congrArg (V c main_v0_2 : S8192x1024.Idx → EReal) (funext fun a => Fin.ext ?_)
  match a with
  | ⟨0, _⟩ => show win1_2.index t (0 : Fin 2) * 1024 + 1 * s.val = 1024 * (t.val % 8) + s.val; rw [e0]; omega
  | ⟨1, _⟩ => show win1_2.index t (1 : Fin 2) * 1024 + 1 * j.val = j.val; rw [e1]; omega

/-! ## The result array from its blocks -/

/-- What a point at the last key block writes back is its block of `G`, when the block it leaves is. -/
theorem flushed3_eq (c : Dev nD) (G : S8192x1024.Idx → EReal)
    (h : ∀ t : Fin cfg1.N, t.val % 8 = 7 → ∀ r j : Fin 1024,
      ((outsAt1 V c t.val t.isLt).1 : S1024x1024.Idx → EReal) (ix2 r j)
        = G (ix2 (⟨1024 * (t.val / 8) + r.val, row_lt t r⟩ : Fin 8192) j))
    (t : Fin cfg1.N) (ht : t.val % 8 = 7) :
    (dat1 V c).flushed 3 t = ((cfg1.win 3).blk t).view.read (Elt Ideal) G := by
  show (cfg1.win 3).cut (grid1.coords t) ((dat1 V c).after 3 t) = _
  rw [after1_3]
  obtain ⟨-, -, -, -, -, -, e0, e1⟩ := idx_facts t
  funext j
  have hxj : ((cfg1.win 3).xinj (grid1.coords t) j : S1024x1024.Idx)
      = ix2 (⟨(j 0).val, (j 0).isLt⟩ : Fin 1024) (⟨(j 1).val, (j 1).isLt⟩ : Fin 1024) :=
    funext fun a => Fin.ext (by match a with | ⟨0, _⟩ => rfl | ⟨1, _⟩ => rfl)
  rw [View.read_apply]
  show ((outsAt1 V c t.val t.isLt).1 : S1024x1024.Idx → EReal) ((cfg1.win 3).xinj (grid1.coords t) j)
    = G (((cfg1.win 3).blk t).view.emb j)
  refine (congrArg ((outsAt1 V c t.val t.isLt).1 : S1024x1024.Idx → EReal) hxj).trans ?_
  refine (h t ht _ _).trans (congrArg G (funext fun a => Fin.ext ?_))
  match a with
  | ⟨0, _⟩ => show 1024 * (t.val / 8) + (j 0).val = win1_3.index t (0 : Fin 2) * 1024 + 1 * (j 0).val; rw [e0]; omega
  | ⟨1, _⟩ => show (j 1).val = win1_3.index t (1 : Fin 2) * 1024 + 1 * (j 1).val; rw [e1]; omega

/-- An index of the array is in point t's block iff each coordinate is in the block's range on its axis. -/
theorem mem_blk3 (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v1).slice (win1_3.rect t)).set ↔ _
  rw [View.set_slice_whole, Rect.mem_set_unit]
  exact Iff.rfl

/-- Row p lies in the block written back at point 8·(p / 1024) + 7. -/
theorem cover3 (i : S8192x1024.Idx) :
    ∃ t : Fin cfg1.N, (cfg1.win 3).flush t = true ∧ i ∈ ((cfg1.win 3).blk t).view.set := by
  have h0 : (i 0).val < 8192 := (i 0).isLt
  have h1 : (i 1).val < 1024 := (i 1).isLt
  obtain ⟨t, ht⟩ : ∃ t : Fin cfg1.N, t.val = 8 * ((i 0).val / 1024) + 7 :=
    ⟨⟨8 * ((i 0).val / 1024) + 7, Nat.lt_of_lt_of_eq (by omega : 8 * ((i 0).val / 1024) + 7 < 64) N_1.symm⟩, rfl⟩
  obtain ⟨-, -, -, -, -, -, e0, e1⟩ := idx_facts t
  refine ⟨t, (flush1_3 t).mpr (by omega), ?_⟩
  rw [mem_blk3]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 1024 ≤ (i 1).val ∧ (i 1).val < win1_3.index t (1 : Fin 2) * 1024 + 1024
    rw [e1]; omega

/-- The result array ends holding `G` when every point at a last key block leaves its block of `G`. -/
theorem arrAt3_of_blocks (c : Dev nD) (G : S8192x1024.Idx → EReal)
    (h : ∀ t : Fin cfg1.N, t.val % 8 = 7 → ∀ r j : Fin 1024,
      ((outsAt1 V c t.val t.isLt).1 : S1024x1024.Idx → EReal) (ix2 r j)
        = G (ix2 (⟨1024 * (t.val / 8) + r.val, row_lt t r⟩ : Fin 8192) j)) :
    (dat1 V c).arrAt 3 cfg1.N = G :=
  (dat1 V c).arrAt_eq_of_cover 3 G (fun t hf => flushed3_eq V c G h t ((flush1_3 t).mp hf)) cover3

end Cert.KernelIdeal.AttnBlocks

end
-- ==== Proof.SoftmaxGlue.lean ====
/-
  The attention map's entry as the online-softmax recurrence's result.

  For arrays whose every entry is finite, a projection (a finite sum of products) and a score (a finite
  sum of products times the real scale 1/32) are real numbers. Row p's 8192 keys split into 8 blocks of
  1024, key i * 1024 + t being entry t of block i; the row's largest score has exactly the scores' upper
  bounds; so the entry (p, j) of the attention map, the max-shifted softmax of row p against column j of
  the values, is acc / l of the recurrence run over the 8 blocks.
-/
import proofs.«161902_j11218454577369_2_alg».proof.Proof.Spec
import proofs.«161902_j11218454577369_2_alg».proof.Proof.LibOnlineSoftmax
import Idealize.ShloMosaic.PureOps.Ideal.Laws

noncomputable section

open scoped BigOperators

namespace Cert.SoftmaxGlue

open Idealize.ShloMosaic Idealize.ShloMosaic.ValueIdx

/-- The f32 word of -∞ is the bottom of the extended reals. -/
theorem ofBits_neg_inf_f32 : Ideal.ofBits .f32 0xFF800000#32 = ⊥ := by simp [Ideal.ofBits, Ideal.ieee]

/-- Key i * 1024 + t of a row of 8192 = 8 * 1024 keys is in range. -/
theorem blk_lt {i : ℕ} (h : i < 8) (t : Fin 1024) : i * 1024 + t.val < 8192 := by
  have := t.isLt; omega

/-- A projection of finite arrays is a real number. -/
theorem proj_real (x : Spec.Act) (w : Spec.Wt) (hx : ∀ i, ∃ r : ℝ, x i = (r : EReal))
    (hw : ∀ i, ∃ r : ℝ, w i = (r : EReal)) (t : Fin 8192) (d : Fin 1024) :
    ∃ r : ℝ, Spec.proj x w t d = (r : EReal) := by
  choose xr hxr using hx
  choose wr hwr using hw
  refine ⟨∑ k : Fin 1024, xr (ix2 t k) * wr (ix2 k d), ?_⟩
  unfold Spec.proj
  simp only [hxr, hwr, ← EReal.coe_mul, ← OnlineSoftmax.coe_sum]

/-- A score of finite arrays is a real number. -/
theorem score_real (x : Spec.Act) (wq wk : Spec.Wt) (hx : ∀ i, ∃ r : ℝ, x i = (r : EReal))
    (hq : ∀ i, ∃ r : ℝ, wq i = (r : EReal)) (hk : ∀ i, ∃ r : ℝ, wk i = (r : EReal)) (p t : Fin 8192) :
    ∃ r : ℝ, Spec.score x wq wk p t = (r : EReal) := by
  choose a ha using fun d => proj_real x wq hx hq p d
  choose b hb using fun d => proj_real x wk hx hk t d
  refine ⟨(∑ d : Fin 1024, a d * b d) * (1 / 32), ?_⟩
  unfold Spec.score
  rw [Spec.scale_eq, Spec.ofBits_thirtysecond_f32]
  simp only [ha, hb, ← EReal.coe_mul, ← OnlineSoftmax.coe_sum]

/-- The 8192 keys as 8 blocks of 1024: key i * 1024 + t is entry t of block i. -/
def split : Fin 8192 ≃ Fin 8 × Fin 1024 := (finProdFinEquiv (m := 8) (n := 1024)).symm

theorem split_symm_apply (i : ℕ) (h : i < 8) (t : Fin 1024) :
    split.symm (⟨i, h⟩, t) = (⟨i * 1024 + t.val, blk_lt h t⟩ : Fin 8192) := by
  apply Fin.ext
  show t.val + 1024 * i = i * 1024 + t.val
  omega

/-- Entry (p, j) of the attention map of finite arrays is the result acc / l of the online-softmax
    recurrence after 8 blocks, for any block scores s and block values v that below 8 are row p's scores
    and column j of the projected values, key i * 1024 + t in entry t of block i. -/
theorem entry_eq_online (x : Spec.Act) (wq wk wv : Spec.Wt) (hx : ∀ i, ∃ r : ℝ, x i = (r : EReal))
    (hq : ∀ i, ∃ r : ℝ, wq i = (r : EReal)) (hk : ∀ i, ∃ r : ℝ, wk i = (r : EReal))
    (hv : ∀ i, ∃ r : ℝ, wv i = (r : EReal)) (p : Fin 8192) (j : Fin 1024)
    (s v : ℕ → Fin 1024 → EReal)
    (hs : ∀ i (h : i < 8) (t : Fin 1024), s i t = Spec.score x wq wk p ⟨i * 1024 + t.val, blk_lt h t⟩)
    (hvv : ∀ i (h : i < 8) (t : Fin 1024), v i t = Spec.proj x wv ⟨i * 1024 + t.val, blk_lt h t⟩ j) :
    Spec.entry x wq wk wv p j
      = Ideal.div (OnlineSoftmax.state s v 8).2.2 (OnlineSoftmax.state s v 8).2.1 := by
  choose σ hσ using fun t => score_real x wq wk hx hq hk p t
  choose ν hν using fun t => proj_real x wv hx hv t j
  have hM : ∀ y : EReal, Spec.rowMax x wq wk p ≤ y ↔ ∀ t, (σ t : EReal) ≤ y := fun y => by
    unfold Spec.rowMax
    rw [ofBits_neg_inf_f32, max_le_iff, Finset.fold_max_le]
    simp [hσ]
  have key := OnlineSoftmax.online_softmax_equiv (nb := 8) (B := 1024) (by norm_num) (by norm_num) split σ ν
    (Spec.rowMax x wq wk p) hM
  have hentry : Spec.entry x wq wk wv p j
      = ∑ t, Ideal.div (Ideal.exp ((σ t : EReal) - Spec.rowMax x wq wk p))
          (0 + ∑ t', Ideal.exp ((σ t' : EReal) - Spec.rowMax x wq wk p)) * (ν t : EReal) := by
    unfold Spec.entry Spec.denom Spec.weight
    simp only [hσ, hν, Ideal.ofBits_zero_f32]
  rw [hentry, ← key]
  rw [OnlineSoftmax.stateFin_eq_state _ _ s v
    (fun i h => funext fun t => by rw [hs i h t, hσ, split_symm_apply i h t])
    (fun i h => funext fun t => by rw [hvv i h t, hν, split_symm_apply i h t]) 8 le_rfl]

end Cert.SoftmaxGlue

end
-- ==== Proof.AttnValue.lean ====
/-
  The attention region's result array at the ideal instance. Suppose the region finds, in its three input arrays, the
  query, key and value projections of real (finite) activations and weights. Then the scores the kernel forms block by
  block are the specification's scores, its value blocks are the specification's projected values, the scratch arrays
  after the last key block hold the online-softmax state after all 8 blocks, and numerator over denominator is the
  softmax-weighted sum: every entry of the result array is the specification's entry.
-/
import proofs.«161902_j11218454577369_2_alg».proof.Proof.AttnState
import proofs.«161902_j11218454577369_2_alg».proof.Proof.AttnBlocks
import proofs.«161902_j11218454577369_2_alg».proof.Proof.SoftmaxGlue

noncomputable section

namespace Cert.KernelIdeal.AttnValue

open Cert.KernelIdeal Cert.KernelIdeal.Gen Cert.KernelIdeal.Hand Cert.KernelIdeal.FlashValue Cert.KernelIdeal.AttnBlocks
open Idealize.ShloMosaic Idealize.ShloMosaic.TcCoe Idealize.ShloMosaic.ValueIdx Idealize.SL.Sem
open Cert

variable (V : (c : Dev nD) → (b : Ref sig .tc) → Buf (Elt Ideal) ((c : Thread nD τ).loc b))

/-- The point's block scores are the specification's scores of the query row against the key block's rows. -/
theorem ptScore_spec (c : Dev nD) (x : Spec.Act) (wq wk : Spec.Wt)
    (hQ : ∀ i : S8192x1024.Idx, (V c main_v0_0 : S8192x1024.Idx → EReal) i = Spec.proj x wq (i 0) (i 1))
    (hK : ∀ i : S8192x1024.Idx, (V c main_v0_1 : S8192x1024.Idx → EReal) i = Spec.proj x wk (i 0) (i 1))
    (t : Fin cfg1.N) (r : Fin 1024) (i : ℕ) (hi : i < 8) (s : Fin 1024) :
    ptScore V c r (8 * (t.val / 8) + i) s
      = Spec.score x wq wk ⟨1024 * (t.val / 8) + r.val, row_lt t r⟩ ⟨i * 1024 + s.val, SoftmaxGlue.blk_lt hi s⟩ := by
  have hN : t.val < 64 := lt_of_lt_of_eq t.isLt N_1
  have hv : (pt (8 * (t.val / 8) + i)).val = 8 * (t.val / 8) + i := pt_val (by omega)
  have e1 : (⟨1024 * ((pt (8 * (t.val / 8) + i)).val / 8) + r.val, row_lt (pt (8 * (t.val / 8) + i)) r⟩ : Fin 8192)
      = ⟨1024 * (t.val / 8) + r.val, row_lt t r⟩ := Fin.ext (by simp only [hv]; omega)
  have e2 : (⟨1024 * ((pt (8 * (t.val / 8) + i)).val % 8) + s.val, key_lt (pt (8 * (t.val / 8) + i)) s⟩ : Fin 8192)
      = ⟨i * 1024 + s.val, SoftmaxGlue.blk_lt hi s⟩ := Fin.ext (by simp only [hv]; omega)
  unfold ptScore blockScore Spec.score
  rw [Spec.scale_eq]
  congr 1
  refine Finset.sum_congr rfl fun d _ => ?_
  rw [qblk_apply, kblk_apply, hQ, hK]
  show Spec.proj x wq ⟨1024 * ((pt (8 * (t.val / 8) + i)).val / 8) + r.val, _⟩ d
      * Spec.proj x wk ⟨1024 * ((pt (8 * (t.val / 8) + i)).val % 8) + s.val, _⟩ d = _
  rw [e1, e2]

/-- The point's value block's column j is the specification's projected values of the key block's rows. -/
theorem ptVal_spec (c : Dev nD) (x : Spec.Act) (wv : Spec.Wt)
    (hV : ∀ i : S8192x1024.Idx, (V c main_v0_2 : S8192x1024.Idx → EReal) i = Spec.proj x wv (i 0) (i 1))
    (t : Fin cfg1.N) (j : Fin 1024) (i : ℕ) (hi : i < 8) (s : Fin 1024) :
    ptVal V c j (8 * (t.val / 8) + i) s = Spec.proj x wv ⟨i * 1024 + s.val, SoftmaxGlue.blk_lt hi s⟩ j := by
  have hN : t.val < 64 := lt_of_lt_of_eq t.isLt N_1
  have hv : (pt (8 * (t.val / 8) + i)).val = 8 * (t.val / 8) + i := pt_val (by omega)
  have e2 : (⟨1024 * ((pt (8 * (t.val / 8) + i)).val % 8) + s.val, key_lt (pt (8 * (t.val / 8) + i)) s⟩ : Fin 8192)
      = ⟨i * 1024 + s.val, SoftmaxGlue.blk_lt hi s⟩ := Fin.ext (by simp only [hv]; omega)
  unfold ptVal
  rw [vblk_apply, hV]
  show Spec.proj x wv ⟨1024 * ((pt (8 * (t.val / 8) + i)).val % 8) + s.val, _⟩ j = _
  rw [e2]

/-- At the last key block the output block's entry (r, j) is the specification's entry of that query row. -/
theorem out_entry (c : Dev nD) (x : Spec.Act) (wq wk wv : Spec.Wt) (hx : ∀ i, ∃ r : ℝ, x i = (r : EReal)) (hq : ∀ i, ∃ r : ℝ, wq i = (r : EReal)) (hk : ∀ i, ∃ r : ℝ, wk i = (r : EReal)) (hv : ∀ i, ∃ r : ℝ, wv i = (r : EReal))
    (hQ : ∀ i : S8192x1024.Idx, (V c main_v0_0 : S8192x1024.Idx → EReal) i = Spec.proj x wq (i 0) (i 1))
    (hK : ∀ i : S8192x1024.Idx, (V c main_v0_1 : S8192x1024.Idx → EReal) i = Spec.proj x wk (i 0) (i 1))
    (hV : ∀ i : S8192x1024.Idx, (V c main_v0_2 : S8192x1024.Idx → EReal) i = Spec.proj x wv (i 0) (i 1))
    (t : Fin cfg1.N) (h7 : t.val % 8 = 7) (r j : Fin 1024) :
    ((outsAt1 V c t.val t.isLt).1 (ix2 r j) : EReal) = Spec.entry x wq wk wv ⟨1024 * (t.val / 8) + r.val, row_lt t r⟩ j := by
  have hN : t.val < 64 := lt_of_lt_of_eq t.isLt N_1
  rw [out_div V c t h7 r j, trip_state V c r j t.val hN, h7]
  exact (SoftmaxGlue.entry_eq_online x wq wk wv hx hq hk hv _ j _ _
    (fun i hi s => ptScore_spec V c x wq wk hQ hK t r i hi s)
    (fun i hi s => ptVal_spec V c x wv hV t j i hi s)).symm

/-- The result array after the region is the specification's attention output. -/
theorem attn_array (c : Dev nD) (x : Spec.Act) (wq wk wv : Spec.Wt) (hx : ∀ i, ∃ r : ℝ, x i = (r : EReal)) (hq : ∀ i, ∃ r : ℝ, wq i = (r : EReal)) (hk : ∀ i, ∃ r : ℝ, wk i = (r : EReal)) (hv : ∀ i, ∃ r : ℝ, wv i = (r : EReal))
    (hQ : ∀ i : S8192x1024.Idx, (V c main_v0_0 : S8192x1024.Idx → EReal) i = Spec.proj x wq (i 0) (i 1))
    (hK : ∀ i : S8192x1024.Idx, (V c main_v0_1 : S8192x1024.Idx → EReal) i = Spec.proj x wk (i 0) (i 1))
    (hV : ∀ i : S8192x1024.Idx, (V c main_v0_2 : S8192x1024.Idx → EReal) i = Spec.proj x wv (i 0) (i 1)) :
    (dat1 V c).arrAt 3 cfg1.N = Spec.attn x wq wk wv :=
  arrAt3_of_blocks V c (Spec.attn x wq wk wv) fun t h7 r j =>
    (out_entry V c x wq wk wv hx hq hk hv hQ hK hV t h7 r j).trans (Spec.attn_apply x wq wk wv _ j).symm

end Cert.KernelIdeal.AttnValue

end
-- ==== Proof.LibHostRows.lean ====
/-
  The host's maximum over the second axis of a matrix, read at a row, at the exact (extended-real) values.

  Row `t` of an `[a, b]` array reduced over its second axis by `stablehlo.reduce` with a maximum collects the entries
  `(t, s)`, `s` running over the `b` columns: the fold of `max` over them from the starting value's one element. (The
  kernel-side `multi_reduction` forms and the stack form `[n, a, b]` are in LibRows.lean, whose coordinate lemma this uses.)
-/
import proofs.«161902_j11218454577369_2_alg».proof.Proof.LibRows

namespace Idealize.ShloMosaic.ValueIdx

open Idealize.ShloMosaic

variable {φ : FTy}

/-- The host's maximum over the second axis of a matrix: at `t` the fold of `max` over the entries `(t, s)`, from the
    starting value's one element. -/
theorem hostRowMax_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduce FloatOps.maximumf x init h' hu (ix1 t)
      = (Finset.univ : Finset (Fin b)).fold max (init ix0) (fun s => x (ix2 t s)) := by
  rw [Host.reduce_eq_fold_single FloatOps.maximumf x init h' h hu, eq_ix0 (Shape.Idx.first hu)]
  have e : (x ∘ h.lift (ix1 t)) = fun s : Fin b => x (ix2 t s) := funext fun s => congrArg x (lift_last_ix2 h t s)
  rw [e]
  rfl

end Idealize.ShloMosaic.ValueIdx
-- ==== Proof.RefValue.lean ====
/-
  The reference program read at an index: its generated run and read-at-an-index lemmas are imported here, and the
  reference's result is restated as one function of the four argument arrays.

  Each stage of the reference is read at the index with explicit coordinates and identified with the matching piece of
  the specification: the three projections, the scaled scores, the row maximum (the host's maximum over the key axis is
  the fold of `max` over that row), the shifted exponentials, their row sums, the quotients, and the final product with
  the values.
-/
import proofs.«161902_j11218454577369_2_alg».proof.Defs
import proofs.«161902_j11218454577369_2_alg».proof.Proof.Gen.ReferenceIdeal.Read
import proofs.«161902_j11218454577369_2_alg».proof.Proof.Spec
import proofs.«161902_j11218454577369_2_alg».proof.Proof.LibHostRows

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec

/-! ## The index functions of the generated stages, at explicit coordinates -/

theorem lidx_v0 (p : Fin 8192) (d k : Fin 1024) : lidx_main_v0 (ix2 p d) k = ix2 p k :=
  funext fun a => Fin.ext (by match a with | ⟨0, _⟩ => rfl | ⟨1, _⟩ => rfl)
theorem ridx_v0 (p : Fin 8192) (d k : Fin 1024) : ridx_main_v0 (ix2 p d) k = ix2 k d :=
  funext fun a => Fin.ext (by match a with | ⟨0, _⟩ => rfl | ⟨1, _⟩ => rfl)
theorem lidx_v1 (p : Fin 8192) (d k : Fin 1024) : lidx_main_v1 (ix2 p d) k = ix2 p k :=
  funext fun a => Fin.ext (by match a with | ⟨0, _⟩ => rfl | ⟨1, _⟩ => rfl)
theorem ridx_v1 (p : Fin 8192) (d k : Fin 1024) : ridx_main_v1 (ix2 p d) k = ix2 k d :=
  funext fun a => Fin.ext (by match a with | ⟨0, _⟩ => rfl | ⟨1, _⟩ => rfl)
theorem lidx_v2 (p : Fin 8192) (d k : Fin 1024) : lidx_main_v2 (ix2 p d) k = ix2 p k :=
  funext fun a => Fin.ext (by match a with | ⟨0, _⟩ => rfl | ⟨1, _⟩ => rfl)
theorem ridx_v2 (p : Fin 8192) (d k : Fin 1024) : ridx_main_v2 (ix2 p d) k = ix2 k d :=
  funext fun a => Fin.ext (by match a with | ⟨0, _⟩ => rfl | ⟨1, _⟩ => rfl)
theorem lidx_v5 (p t : Fin 8192) (k : Fin 1024) : lidx_main_v5 (ix2 p t) k = ix2 p k :=
  funext fun a => Fin.ext (by match a with | ⟨0, _⟩ => rfl | ⟨1, _⟩ => rfl)
theorem ridx_v5 (p t : Fin 8192) (k : Fin 1024) : ridx_main_v5 (ix2 p t) k = ix2 t k :=
  funext fun a => Fin.ext (by match a with | ⟨0, _⟩ => rfl | ⟨1, _⟩ => rfl)
theorem idx_v12 (p t : Fin 8192) : idx_main_v11 (idx_main_v12 (ix2 p t)) = ix1 p :=
  funext fun a => Fin.ext (by match a with | ⟨0, _⟩ => rfl)
theorem idx_v15 (p k : Fin 8192) : idx_main_v15 (ix1 p) k = ix2 p k :=
  funext fun a => Fin.ext (by match a with | ⟨0, _⟩ => rfl | ⟨1, _⟩ => rfl)
theorem idx_v17 (p t : Fin 8192) : idx_main_v16 (idx_main_v17 (ix2 p t)) = ix1 p :=
  funext fun a => Fin.ext (by match a with | ⟨0, _⟩ => rfl)
theorem lidx_v19 (p : Fin 8192) (j : Fin 1024) (k : Fin 8192) : lidx_main_v19 (ix2 p j) k = ix2 p k :=
  funext fun a => Fin.ext (by match a with | ⟨0, _⟩ => rfl | ⟨1, _⟩ => rfl)
theorem ridx_v19 (p : Fin 8192) (j : Fin 1024) (k : Fin 8192) : ridx_main_v19 (ix2 p j) k = ix2 k j :=
  funext fun a => Fin.ext (by match a with | ⟨0, _⟩ => rfl | ⟨1, _⟩ => rfl)

/-! ## The stages -/

/-- The query projection at `(p, d)`. -/
theorem v0_apply (x0 : Act) (x1 : Wt) (p : Fin 8192) (d : Fin 1024) :
    val_main_v0 (F := Ideal) x0 x1 (ix2 p d) = proj x0 x1 p d := by
  rw [val_main_v0_apply]
  unfold proj
  exact Finset.sum_congr rfl fun k _ => by rw [lidx_v0, ridx_v0]

/-- The key projection at `(t, d)`. -/
theorem v1_apply (x0 : Act) (x2 : Wt) (t : Fin 8192) (d : Fin 1024) :
    val_main_v1 (F := Ideal) x0 x2 (ix2 t d) = proj x0 x2 t d := by
  rw [val_main_v1_apply]
  unfold proj
  exact Finset.sum_congr rfl fun k _ => by rw [lidx_v1, ridx_v1]

/-- The value projection at `(t, j)`. -/
theorem v2_apply (x0 : Act) (x3 : Wt) (t : Fin 8192) (j : Fin 1024) :
    val_main_v2 (F := Ideal) x0 x3 (ix2 t j) = proj x0 x3 t j := by
  rw [val_main_v2_apply]
  unfold proj
  exact Finset.sum_congr rfl fun k _ => by rw [lidx_v2, ridx_v2]

/-- The broadcast scale reads the scalar quotient everywhere. -/
theorem v6_apply (i : S8192x8192.Idx) : val_main_v6 (F := Ideal) i = scale := by
  rw [val_main_v6_apply]
  rfl

/-- The unscaled score at `(p, t)`. -/
theorem v5_apply (x0 : Act) (x1 x2 : Wt) (p t : Fin 8192) :
    val_main_v5 (F := Ideal) x0 x1 x2 (ix2 p t) = ∑ d : Fin 1024, proj x0 x1 p d * proj x0 x2 t d := by
  rw [val_main_v5_apply]
  exact Finset.sum_congr rfl fun k _ => by rw [lidx_v5, ridx_v5, v0_apply, v1_apply]

/-- The scaled score at `(p, t)`. -/
theorem v7_apply (x0 : Act) (x1 x2 : Wt) (p t : Fin 8192) :
    val_main_v7 (F := Ideal) x0 x1 x2 (ix2 p t) = score x0 x1 x2 p t := by
  rw [val_main_v7_apply, v5_apply, v6_apply]
  rfl

/-- The host's maximum over the key axis at row `p`: the fold of `max` over the row's scores from −∞. -/
theorem v8_apply (x0 : Act) (x1 x2 : Wt) (p : Fin 8192) :
    val_main_v8 (F := Ideal) x0 x1 x2 (ix1 p)
      = (Finset.univ : Finset (Fin 8192)).fold max (Ideal.ofBits .f32 0xFF800000#32) (fun t => score x0 x1 x2 p t) := by
  have e : (fun t : Fin 8192 => val_main_v7 (F := Ideal) x0 x1 x2 (ix2 p t)) = fun t => score x0 x1 x2 p t :=
    funext fun t => v7_apply x0 x1 x2 p t
  rw [← e]
  unfold val_main_v8
  generalize val_main_v7 (F := Ideal) x0 x1 x2 = y
  exact hostRowMax_apply y (val_main_cst_1 (F := Ideal)) reducesTo_S8192x8192_S8192_d1 (by decide) h_S_ p

/-- The row maximum at `p`. -/
theorem v10_apply (x0 : Act) (x1 x2 : Wt) (p : Fin 8192) :
    val_main_v10 (F := Ideal) x0 x1 x2 (ix1 p) = rowMax x0 x1 x2 p := by
  rw [val_main_v10_apply, val_main_v9_apply, v8_apply]
  rfl

/-- The row maximum broadcast back over the key axis. -/
theorem v12_apply (x0 : Act) (x1 x2 : Wt) (p t : Fin 8192) :
    val_main_v12 (F := Ideal) x0 x1 x2 (ix2 p t) = rowMax x0 x1 x2 p := by
  rw [val_main_v12_apply, val_main_v11_apply, idx_v12, v10_apply]

/-- The shifted exponential at `(p, t)`. -/
theorem v14_apply (x0 : Act) (x1 x2 : Wt) (p t : Fin 8192) :
    val_main_v14 (F := Ideal) x0 x1 x2 (ix2 p t) = weight x0 x1 x2 p t := by
  rw [val_main_v14_apply, val_main_v13_apply, v7_apply, v12_apply]
  rfl

/-- The row sum of the exponentials at `p`. -/
theorem v15_apply (x0 : Act) (x1 x2 : Wt) (p : Fin 8192) :
    val_main_v15 (F := Ideal) x0 x1 x2 (ix1 p) = denom x0 x1 x2 p := by
  rw [val_main_v15_apply]
  unfold denom
  exact congrArg₂ (· + ·) rfl (Finset.sum_congr rfl fun k _ => by rw [idx_v15, v14_apply])

/-- The row sum broadcast back over the key axis. -/
theorem v17_apply (x0 : Act) (x1 x2 : Wt) (p t : Fin 8192) :
    val_main_v17 (F := Ideal) x0 x1 x2 (ix2 p t) = denom x0 x1 x2 p := by
  rw [val_main_v17_apply, val_main_v16_apply, idx_v17, v15_apply]

/-- The normalized weight at `(p, t)`. -/
theorem v18_apply (x0 : Act) (x1 x2 : Wt) (p t : Fin 8192) :
    val_main_v18 (F := Ideal) x0 x1 x2 (ix2 p t) = Ideal.div (weight x0 x1 x2 p t) (denom x0 x1 x2 p) := by
  rw [val_main_v18_apply, v14_apply, v17_apply]
  rfl

/-- The reference's result at `(p, j)`. -/
theorem ref_entry (x0 : Act) (x1 x2 x3 : Wt) (p : Fin 8192) (j : Fin 1024) :
    val_main_v19 (F := Ideal) x0 x1 x2 x3 (ix2 p j) = entry x0 x1 x2 x3 p j := by
  rw [val_main_v19_apply]
  unfold entry
  exact Finset.sum_congr rfl fun k _ => by rw [lidx_v19, ridx_v19, v18_apply, v2_apply]

/-- The reference's result is the attention map of the specification. -/
theorem ref_eq (x0 : (⟨S8192x1024, .f32⟩ : BufTy).Contents (Elt Ideal))
    (x1 x2 x3 : (⟨S1024x1024, .f32⟩ : BufTy).Contents (Elt Ideal)) :
    val_main_v19 (F := Ideal) x0 x1 x2 x3 = attn x0 x1 x2 x3 := by
  funext i
  obtain ⟨p, j, rfl⟩ : ∃ (p : Fin 8192) (j : Fin 1024), i = ix2 p j := ⟨i 0, i 1, eq_ix2 i⟩
  rw [attn_apply]
  exact ref_entry x0 x1 x2 x3 p j

/-- The reference's scale is the f32 word of 1/32. -/
theorem scale_eq (i : S8192x8192.Idx) : val_main_v6 (F := Ideal) i = Ideal.ofBits .f32 0x3D000000#32 := by
  rw [v6_apply, Cert.Spec.scale_eq]

end Cert.ReferenceIdeal.RefValue

end
-- ==== Proof.FiniteInputs.lean ====
/-
  From the precondition to finiteness. The precondition says that |x| < +∞ holds at every entry of each
  of the four argument arrays: the conjunction of four reductions by "and" over all axes is 1, so each
  comparison bit is 1; and an extended real whose absolute value max x (-x) lies strictly below the top
  is neither -∞ nor +∞, so it is a real number.
-/
import proofs.«161902_j11218454577369_2_alg».proof.Pre_finite_inputs
import proofs.«161902_j11218454577369_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The scalar shape has one index. -/
instance : Subsingleton Cert.Pre_finite_inputs.S_.Idx := ⟨fun _ _ => funext fun d => d.elim0⟩

/-- The f32 word of +∞ is the top of the extended reals. -/
theorem ofBits_pos_inf_f32 : Ideal.ofBits .f32 0x7F800000#32 = ⊤ := by simp [Ideal.ofBits, Ideal.ieee]

/-- An extended real whose absolute value compares strictly below +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_pos_inf_f32] at h'
  induction x using EReal.rec with
  | bot => exact absurd h' (by simp [Ideal.cmp])
  | top => exact absurd h' (by simp [Ideal.cmp])
  | coe r => exact ⟨r, rfl⟩

/-- Under the precondition every entry of the four argument arrays is a real number. -/
theorem finite_of_pre (a0 : FVec Ideal Cert.Pre_finite_inputs.S8192x1024 .f32)
    (a1 a2 a3 : FVec Ideal Cert.Pre_finite_inputs.S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨e0, e1⟩, e2⟩, e3⟩ := h0
  exact ⟨fun i => real_of_abs_lt_inf (a0 i) (Host.reduce_andi_all _ _ _ _ _ e0 i),
    fun i => real_of_abs_lt_inf (a1 i) (Host.reduce_andi_all _ _ _ _ _ e1 i),
    fun i => real_of_abs_lt_inf (a2 i) (Host.reduce_andi_all _ _ _ _ _ e2 i),
    fun i => real_of_abs_lt_inf (a3 i) (Host.reduce_andi_all _ _ _ _ _ e3 i)⟩

end Cert.FiniteInputs

end
-- ==== Proof.lean ====
/-
  Flash attention against softmax attention, over the extended reals.

  The kernel program runs two kernel regions. The first projects the activations x by the three weight matrices into
  queries Q = x·Wq, keys K = x·Wk and values V = x·Wv, a block of 512 rows per grid point. The second walks, for every
  block of 1024 query rows, the 8 blocks of 1024 keys: it keeps per row a running maximum m, a running denominator l and
  a running numerator acc, rescales l and acc by exp(m_old − m_new) at each block, and at the last block stores acc / l.
  The reference forms the whole score matrix S = (Q·Kᵀ)/√1024, shifts each row by its maximum, exponentiates, divides by
  the row sum and multiplies by V.

  At the ideal instance both results are, entry (p, j), the softmax-weighted sum  Σ_t exp(S p t − M p) / L p · V t j  with
  M p the row maximum and L p the row sum: the kernel's scale is the float 1/32, which is 1/√1024; after k key blocks the
  kernel's m, l, acc are the maximum, Σ exp(S − m) and Σ exp(S − m)·V over those blocks (the rescaling is
  exp(m − m')·exp(S − m) = exp(S − m')); and (Σ e·V)/L = Σ (e/L)·V because L ≥ 1. These laws need every score to be a
  real number, which is where the finiteness of the inputs is used. Both kernel programs run to the end without a
  fault and leave their arguments as they were: the projection region's outputs and the attention region's scratch
  arrays are held by the regions' invariants, and the argument arrays are only read.
-/
import proofs.«161902_j11218454577369_2_alg».proof.Defs
import proofs.«161902_j11218454577369_2_alg».proof.Proof.Gen.Kernel
import proofs.«161902_j11218454577369_2_alg».proof.Proof.Gen.KernelIdeal
import proofs.«161902_j11218454577369_2_alg».proof.Proof.Gen.ReferenceIdeal
import proofs.«161902_j11218454577369_2_alg».proof.Proof.Gen.Pre_finite_inputs
import proofs.«161902_j11218454577369_2_alg».proof.Proof.WordTwoRegions
import proofs.«161902_j11218454577369_2_alg».proof.Proof.TwoRegions
import proofs.«161902_j11218454577369_2_alg».proof.Proof.ProjectValue
import proofs.«161902_j11218454577369_2_alg».proof.Proof.AttnValue
import proofs.«161902_j11218454577369_2_alg».proof.Proof.RefValue
import proofs.«161902_j11218454577369_2_alg».proof.Proof.FiniteInputs

noncomputable section

namespace Cert.Proof

open Idealize.ShloMosaic Idealize.ShloMosaic.TcCoe Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal instance. -/
theorem preserves : Cert.preserves_Kernel_KernelIdeal := trivial

/-! ## The kernel's result array -/

section
open Cert.KernelIdeal Cert.KernelIdeal.Gen Cert.KernelIdeal.Hand

/-- From finite inputs, the attention region finds the three projections in its input arrays, and its result array
    is the specification's attention output of the four argument arrays. -/
theorem kernel_value (m : (ℓ : Loc nD τ sig) → Buf (Elt Ideal) ℓ) (hpre : Cert.Pre_KernelIdeal m) (c : Dev nD) :
    (dat1 (V1 m) c).arrAt 3 cfg1.N
      = Cert.Spec.attn (m ((c.tc : Thread nD τ).loc main_arg0)) (m ((c.tc : Thread nD τ).loc main_arg1))
          (m ((c.tc : Thread nD τ).loc main_arg2)) (m ((c.tc : Thread nD τ).loc main_arg3)) := by
  obtain ⟨hx, hq, hk, hv⟩ := Cert.FiniteInputs.finite_of_pre _ _ _ _ (hpre c)
  refine Cert.KernelIdeal.AttnValue.attn_array (V1 m) c _ _ _ _ hx hq hk hv (fun i => ?_) (fun i => ?_) (fun i => ?_)
  · exact congrFun ((W1_arr m c 4).trans (Cert.KernelIdeal.ProjectValue.arrQ (V0 m) c)) i
  · exact congrFun ((W1_arr m c 5).trans (Cert.KernelIdeal.ProjectValue.arrK (V0 m) c)) i
  · exact congrFun ((W1_arr m c 6).trans (Cert.KernelIdeal.ProjectValue.arrV (V0 m) c)) i

end

/-! ## The two idealized programs end with equal results -/

theorem algebraic : Cert.algebraic_KernelIdeal_ReferenceIdeal := by
  intro m ρ m' ρ' hpre hagree
  refine ⟨fun c => Cert.Spec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m hpre c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_eq,
      (hagree c).1, (hagree c).2.1, (hagree c).2.2.1, (hagree c).2.2.2]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
